-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x256 : Shape := ⟨3, ![8, 32768, 256]⟩
abbrev S8x1x32 : Shape := ⟨3, ![8, 1, 32]⟩
abbrev S256 : Shape := ⟨1, ![256]⟩
abbrev S_ : Shape := ⟨0, ![]⟩

class Facts : Prop where
  bcast_S_S8x32768x256 : S_.BroadcastsInDim S8x32768x256 (![] : Fin 0 → Fin S8x32768x256.rank)
  reducesTo_S8x32768x256_S_d0_1_2 : S8x32768x256.ReducesTo [0, 1, 2] S_
  h_S_ : 0 < S_.numel
  bcast_S_S8x1x32 : S_.BroadcastsInDim S8x1x32 (![] : Fin 0 → Fin S8x1x32.rank)
  reducesTo_S8x1x32_S_d0_1_2 : S8x1x32.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x32768x256 .f32) (main_arg1 : FVec F S8x1x32 .f32) (main_arg2 : IVec S256 32) : IVec S_ 1 :=
  let main_v0 : FVec F S8x32768x256 .f32 := Host.absf main_arg0
  let main_cst : FVec F S_ .f32 := constant S_ .f32 0x7F800000#32
  let main_v1 : FVec F S8x32768x256 .f32 := broadcastInDim S8x32768x256 ![] bcast_S_S8x32768x256 main_cst
  let main_v2 : IVec S8x32768x256 1 := cmpf .olt main_v0 main_v1
  let main_c : IVec S_ 1 := constantI S_ 1 1#1
  let main_v3 : IVec S_ 1 := (fun x v => Host.reduce IntOp.andi x v reducesTo_S8x32768x256_S_d0_1_2 h_S_) main_v2 main_c
  let main_v4 : FVec F S8x1x32 .f32 := Host.absf main_arg1
  let main_cst_0 : FVec F S_ .f32 := constant S_ .f32 0x7F800000#32
  let main_v5 : FVec F S8x1x32 .f32 := broadcastInDim S8x1x32 ![] bcast_S_S8x1x32 main_cst_0
  let main_v6 : IVec S8x1x32 1 := cmpf .olt main_v4 main_v5
  let main_c_1 : IVec S_ 1 := constantI S_ 1 1#1
  let main_v7 : IVec S_ 1 := (fun x v => Host.reduce IntOp.andi x v reducesTo_S8x1x32_S_d0_1_2 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 32 := constantI S_ 32 32#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Kernel.lean ====
abbrev S8x32768x256 : Shape := ⟨3, ![8, 32768, 256]⟩
abbrev S8x1x32 : Shape := ⟨3, ![8, 1, 32]⟩
abbrev S256 : Shape := ⟨1, ![256]⟩
abbrev S256x1 : Shape := ⟨2, ![256, 1]⟩
abbrev S128 : Shape := ⟨1, ![128]⟩
abbrev S1x128 : Shape := ⟨2, ![1, 128]⟩
abbrev S256x128 : Shape := ⟨2, ![256, 128]⟩
abbrev S8x1x128 : Shape := ⟨3, ![8, 1, 128]⟩
abbrev S1x4096x256 : Shape := ⟨3, ![1, 4096, 256]⟩
abbrev S1x1x128 : Shape := ⟨3, ![1, 1, 128]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S1x4096x1 : Shape := ⟨3, ![1, 4096, 1]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩
abbrev S8x32 : Shape := ⟨2, ![8, 32]⟩
abbrev S8x1 : Shape := ⟨2, ![8, 1]⟩

abbrev nBuf : Space → Nat
  | .hbm => 54
  | .vmem => 7
  | .smem => 0
  | _ => 0

abbrev bufTy : (tb : Table) → Fin (tcTables nBuf tb) → BufTy
  | .hbm, ⟨0, _⟩ => ⟨S8x32768x256, .f32⟩
  | .hbm, ⟨1, _⟩ => ⟨S8x1x32, .f32⟩
  | .hbm, ⟨2, _⟩ => ⟨S256, .i32⟩
  | .hbm, ⟨3, _⟩ => ⟨S256x1, .i32⟩
  | .hbm, ⟨4, _⟩ => ⟨S128, .i32⟩
  | .hbm, ⟨5, _⟩ => ⟨S1x128, .i32⟩
  | .hbm, ⟨6, _⟩ => ⟨S256x128, .i32⟩
  | .hbm, ⟨7, _⟩ => ⟨S256x128, .i32⟩
  | .hbm, ⟨8, _⟩ => ⟨S256x128, .i1⟩
  | .hbm, ⟨9, _⟩ => ⟨S256x128, .bf16⟩
  | .hbm, ⟨10, _⟩ => ⟨S8x1x128, .f32⟩
  | .hbm, ⟨11, _⟩ => ⟨S8x1x128, .f32⟩
  | .hbm, ⟨12, _⟩ => ⟨S8x1x1, .f32⟩
  | .hbm, ⟨13, _⟩ => ⟨S8, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x1x32, .f32⟩
  | .hbm, ⟨19, _⟩ => ⟨S8x32, .f32⟩
  | .hbm, ⟨20, _⟩ => ⟨S_, .f32⟩
  | .hbm, ⟨21, _⟩ => ⟨S8x32, .f32⟩
  | .hbm, ⟨22, _⟩ => ⟨S8x32, .f32⟩
  | .hbm, ⟨23, _⟩ => ⟨S_, .f32⟩
  | .hbm, ⟨24, _⟩ => ⟨S8x1, .f32⟩
  | .hbm, ⟨25, _⟩ => ⟨S_, .f32⟩
  | .hbm, ⟨26, _⟩ => ⟨S8x1, .f32⟩
  | .hbm, ⟨27, _⟩ => ⟨S8x1, .f32⟩
  | .hbm, ⟨28, _⟩ => ⟨S8x1x1, .f32⟩
  | .hbm, ⟨29, _⟩ => ⟨S8x1x32, .f32⟩
  | .hbm, ⟨30, _⟩ => ⟨S8x1x32, .f32⟩
  | .hbm, ⟨31, _⟩ => ⟨S8x1x32, .f32⟩
  | .hbm, ⟨32, _⟩ => ⟨S_, .f32⟩
  | .hbm, ⟨33, _⟩ => ⟨S8x1, .f32⟩
  | .hbm, ⟨34, _⟩ => ⟨S8x1x1, .f32⟩
  | .hbm, ⟨35, _⟩ => ⟨S8x1x32, .f32⟩
  | .hbm, ⟨36, _⟩ => ⟨S8x1x32, .f32⟩
  | .hbm, ⟨37, _⟩ => ⟨S8x32, .f32⟩
  | .hbm, ⟨38, _⟩ => ⟨S8x32, .f32⟩
  | .hbm, ⟨39, _⟩ => ⟨S8x32, .f32⟩
  | .hbm, ⟨40, _⟩ => ⟨S8x32, .f32⟩
  | .hbm, ⟨41, _⟩ => ⟨S8x32, .f32⟩
  | .hbm, ⟨42, _⟩ => ⟨S_, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x4096x256, .f32⟩
  | .local _ .vmem, ⟨1, _⟩ => ⟨S1x4096x256, .f32⟩
  | .local _ .vmem, ⟨2, _⟩ => ⟨S256x128, .bf16⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | _, _ => ⟨S8x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S256_S256x1_0 : S256.BroadcastsInDim S256x1 (![0] : Fin 1 → Fin S256x1.rank)
  bcast_S128_S1x128_1 : S128.BroadcastsInDim S1x128 (![1] : Fin 1 → Fin S1x128.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S4096x256_S4096 : S4096x256.Reduces [1] S4096
  shapeCasts_S4096_S4096x1 : S4096.ShapeCasts S4096x1
  broadcasts_S4096x1_S4096x256 : S4096x1.Broadcasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S4096x128_S4096 : S4096x128.Reduces [1] S4096
  broadcasts_S4096x1_S4096x128 : S4096x1.Broadcasts S4096x128
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  reduces_S4096x128_S128 : S4096x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  slices_S8x1x128_S8x1x32_0_0_0 : S8x1x128.Slices ![0, 0, 0] S8x1x32
  shapeCasts_S8x1x32_S8x32 : S8x1x32.ShapeCasts S8x32
  bcast_S_S8x32 : S_.BroadcastsInDim S8x32 (![] : Fin 0 → Fin S8x32.rank)
  reducesTo_S8x1x32_S8x1_d2 : S8x1x32.ReducesTo [2] S8x1
  bcast_S_S8x1 : S_.BroadcastsInDim S8x1 (![] : Fin 0 → Fin S8x1.rank)
  bcast_S8x1_S8x1x1_0_1 : S8x1.BroadcastsInDim S8x1x1 (![0, 1] : Fin 2 → Fin S8x1x1.rank)
  bcast_S8x1x1_S8x1x32_0_1_2 : S8x1x1.BroadcastsInDim S8x1x32 (![0, 1, 2] : Fin 3 → Fin S8x1x32.rank)
  reducesTo_S8x32_S8_d1 : S8x32.ReducesTo [1] S8
  bcast_S_S8 : S_.BroadcastsInDim S8 (![] : Fin 0 → Fin S8.rank)
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x32768x256.size a
  hwx0_0 : ∀ i : grid0.Coords, EltTy.bits .f32 = 32 ∨ (Rect.block (s := S8x32768x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32768x256 : Shape := ⟨3, ![8, 32768, 256]⟩
abbrev S8x1x32 : Shape := ⟨3, ![8, 1, 32]⟩
abbrev S256 : Shape := ⟨1, ![256]⟩
abbrev S_ : Shape := ⟨0, ![]⟩
abbrev S8x32768 : Shape := ⟨2, ![8, 32768]⟩
abbrev S8x32768x1 : Shape := ⟨3, ![8, 32768, 1]⟩
abbrev S256x1 : Shape := ⟨2, ![256, 1]⟩
abbrev S32 : Shape := ⟨1, ![32]⟩
abbrev S1x32 : Shape := ⟨2, ![1, 32]⟩
abbrev S256x32 : Shape := ⟨2, ![256, 32]⟩
abbrev S8x32768x32 : Shape := ⟨3, ![8, 32768, 32]⟩
abbrev S8x32 : Shape := ⟨2, ![8, 32]⟩
abbrev S8x1 : Shape := ⟨2, ![8, 1]⟩
abbrev S8x1x1 : Shape := ⟨3, ![8, 1, 1]⟩
abbrev S8 : Shape := ⟨1, ![8]⟩

abbrev nBuf : Space → Nat
  | .hbm => 75
  | .vmem => 0
  | .smem => 0
  | _ => 0

abbrev bufTy : (tb : Table) → Fin (tcTables nBuf tb) → BufTy
  | .hbm, ⟨0, _⟩ => ⟨S8x32768x256, .f32⟩
  | .hbm, ⟨1, _⟩ => ⟨S8x1x32, .f32⟩
  | .hbm, ⟨2, _⟩ => ⟨S256, .i32⟩
  | .hbm, ⟨3, _⟩ => ⟨S_, .f32⟩
  | .hbm, ⟨4, _⟩ => ⟨S8x32768, .f32⟩
  | .hbm, ⟨5, _⟩ => ⟨S_, .f32⟩
  | .hbm, ⟨6, _⟩ => ⟨S8x32768, .f32⟩
  | .hbm, ⟨7, _⟩ => ⟨S8x32768, .f32⟩
  | .hbm, ⟨8, _⟩ => ⟨S8x32768x1, .f32⟩
  | .hbm, ⟨9, _⟩ => ⟨S8x32768x256, .f32⟩
  | .hbm, ⟨10, _⟩ => ⟨S8x32768x256, .f32⟩
  | .hbm, ⟨11, _⟩ => ⟨S8x32768x256, .f32⟩
  | .hbm, ⟨12, _⟩ => ⟨S_, .f32⟩
  | .hbm, ⟨13, _⟩ => ⟨S8x32768, .f32⟩
  | .hbm, ⟨14, _⟩ => ⟨S8x32768x1, .f32⟩
  | .hbm, ⟨15, _⟩ => ⟨S8x32768x1, .f32⟩
  | .hbm, ⟨16, _⟩ => ⟨S8x32768x256, .f32⟩
  | .hbm, ⟨17, _⟩ => ⟨S8x32768x256, .f32⟩
  | .hbm, ⟨18, _⟩ => ⟨S_, .f32⟩
  | .hbm, ⟨19, _⟩ => ⟨S8x32768, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x32768x256, .f32⟩
  | .hbm, ⟨26, _⟩ => ⟨S256x1, .i32⟩
  | .hbm, ⟨27, _⟩ => ⟨S32, .i32⟩
  | .hbm, ⟨28, _⟩ => ⟨S1x32, .i32⟩
  | .hbm, ⟨29, _⟩ => ⟨S256x32, .i32⟩
  | .hbm, ⟨30, _⟩ => ⟨S256x32, .i32⟩
  | .hbm, ⟨31, _⟩ => ⟨S256x32, .i1⟩
  | .hbm, ⟨32, _⟩ => ⟨S256x32, .f32⟩
  | .hbm, ⟨33, _⟩ => ⟨S8x32768x32, .f32⟩
  | .hbm, ⟨34, _⟩ => ⟨S_, .f32⟩
  | .hbm, ⟨35, _⟩ => ⟨S8x32768, .f32⟩
  | .hbm, ⟨36, _⟩ => ⟨S8x32768x1, .f32⟩
  | .hbm, ⟨37, _⟩ => ⟨S8x32768x32, .f32⟩
  | .hbm, ⟨38, _⟩ => ⟨S8x32768x32, .f32⟩
  | .hbm, ⟨39, _⟩ => ⟨S_, .f32⟩
  | .hbm, ⟨40, _⟩ => ⟨S8x32, .f32⟩
  | .hbm, ⟨41, _⟩ => ⟨S_, .f32⟩
  | .hbm, ⟨42, _⟩ => ⟨S8x32, .f32⟩
  | .hbm, ⟨43, _⟩ => ⟨S8x32, .f32⟩
  | .hbm, ⟨44, _⟩ => ⟨S_, .f32⟩
  | .hbm, ⟨45, _⟩ => ⟨S8x1, .f32⟩
  | .hbm, ⟨46, _⟩ => ⟨S_, .f32⟩
  | .hbm, ⟨47, _⟩ => ⟨S8x1, .f32⟩
  | .hbm, ⟨48, _⟩ => ⟨S8x1, .f32⟩
  | .hbm, ⟨49, _⟩ => ⟨S8x1x1, .f32⟩
  | .hbm, ⟨50, _⟩ => ⟨S8x1x32, .f32⟩
  | .hbm, ⟨51, _⟩ => ⟨S8x1x32, .f32⟩
  | .hbm, ⟨52, _⟩ => ⟨S8x1x32, .f32⟩
  | .hbm, ⟨53, _⟩ => ⟨S_, .f32⟩
  | .hbm, ⟨54, _⟩ => ⟨S8x1, .f32⟩
  | .hbm, ⟨55, _⟩ => ⟨S8x1x1, .f32⟩
  | .hbm, ⟨56, _⟩ => ⟨S8x1x32, .f32⟩
  | .hbm, ⟨57, _⟩ => ⟨S8x1x32, .f32⟩
  | .hbm, ⟨58, _⟩ => ⟨S8x32, .f32⟩
  | .hbm, ⟨59, _⟩ => ⟨S8x32, .f32⟩
  | .hbm, ⟨60, _⟩ => ⟨S8x32, .f32⟩
  | .hbm, ⟨61, _⟩ => ⟨S8x32, .f32⟩
  | .hbm, ⟨62, _⟩ => ⟨S8x32, .f32⟩
  | .hbm, ⟨63, _⟩ => ⟨S_, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]

class Facts₀ : Prop where
  reducesTo_S8x32768x256_S8x32768_d2 : S8x32768x256.ReducesTo [2] S8x32768
  h_S_ : 0 < S_.numel
  bcast_S_S8x32768 : S_.BroadcastsInDim S8x32768 (![] : Fin 0 → Fin S8x32768.rank)
  bcast_S8x32768_S8x32768x1_0_1 : S8x32768.BroadcastsInDim S8x32768x1 (![0, 1] : Fin 2 → Fin S8x32768x1.rank)
  bcast_S8x32768x1_S8x32768x256_0_1_2 : S8x32768x1.BroadcastsInDim S8x32768x256 (![0, 1, 2] : Fin 3 → Fin S8x32768x256.rank)
  reducesTo_S8x32768_S_d0_1 : S8x32768.ReducesTo [0, 1] S_
  bcast_S256_S256x1_0 : S256.BroadcastsInDim S256x1 (![0] : Fin 1 → Fin S256x1.rank)
  bcast_S32_S1x32_1 : S32.BroadcastsInDim S1x32 (![1] : Fin 1 → Fin S1x32.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  reducesTo_S8x32768x32_S8x32768_d2 : S8x32768x32.ReducesTo [2] S8x32768
  bcast_S8x32768x1_S8x32768x32_0_1_2 : S8x32768x1.BroadcastsInDim S8x32768x32 (![0, 1, 2] : Fin 3 → Fin S8x32768x32.rank)
  reducesTo_S8x32768x32_S8x32_d1 : S8x32768x32.ReducesTo [1] S8x32
  bcast_S_S8x32 : S_.BroadcastsInDim S8x32 (![] : Fin 0 → Fin S8x32.rank)
  reducesTo_S8x1x32_S8x1_d2 : S8x1x32.ReducesTo [2] S8x1
  bcast_S_S8x1 : S_.BroadcastsInDim S8x1 (![] : Fin 0 → Fin S8x1.rank)
  bcast_S8x1_S8x1x1_0_1 : S8x1.BroadcastsInDim S8x1x1 (![0, 1] : Fin 2 → Fin S8x1x1.rank)
  bcast_S8x1x1_S8x1x32_0_1_2 : S8x1x1.BroadcastsInDim S8x1x32 (![0, 1, 2] : Fin 3 → Fin S8x1x32.rank)
  shapeCasts_S8x1x32_S8x32 : S8x1x32.ShapeCasts S8x32
  reducesTo_S8x32_S8_d1 : S8x32.ReducesTo [1] S8
  bcast_S_S8 : S_.BroadcastsInDim S8 (![] : Fin 0 → Fin S8.rank)
  reducesTo_S8_S_d0 : S8.ReducesTo [0] S_
  dot_S8x32768x256_S256x32_S8x32768x32_2_0_01_1_n_n_wf : DotDims.WF S8x32768x256 S256x32 S8x32768x32 [2] [0] [0, 1] [1] [] []

variable [Facts₀]

def dot_S8x32768x256_S256x32_S8x32768x32_2_0_01_1_n_n : DotDims S8x32768x256 S256x32 S8x32768x32 where
  lhsContracting := [2]
  rhsContracting := [0]
  lhsNonContracting := [0, 1]
  rhsNonContracting := [1]
  lhsBatch := []
  rhsBatch := []
  wf := dot_S8x32768x256_S256x32_S8x32768x32_2_0_01_1_n_n_wf

class Facts : Prop extends Facts₀ where

variable [Facts]
-- ==== Proof.KPieces.lean ====
/-
  What one run of the kernel body leaves in the two output blocks, as values.
  At a batch's first tile the body stores the zero block, reads it back and adds: the log block ends at
  0 + (the tile's summed log-denominators, in every lane) and the group block at 0 + (the tile's summed group
  probabilities). At a later tile it adds the same two quantities to what the tile before left.
-/
import proofs.«110291_j21131239096803_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: the log block is the log payload of the tile over the previous contents. -/
theorem out_B_2 (c : Dev nD) (i : grid0.Coords) (arg2 : Memref sig .tc .vmem S1x4096x256 .f32) (harg2 : arg2.IsWhole) (arg3 : Memref sig .tc .vmem S256x128 .bf16) (harg3 : arg3.IsWhole) (arg4 : Memref sig .tc .vmem S1x1x128 .f32) (harg4 : arg4.IsWhole) (arg5 : Memref sig .tc .vmem S1x1x128 .f32) (harg5 : arg5.IsWhole) (hc0 : ¬cond0_0 i)
    (x0 : Vec F S1x4096x256 .f32) (x1 : Vec F S256x128 .bf16) (xo2 : Vec F S1x1x128 .f32) (xo3 : Vec F S1x1x128 .f32) :
    out0_B_2 c i arg2 harg2 arg3 harg3 arg4 harg4 arg5 harg5 hc0 x0 x1 xo2 xo3 = k0_pay7 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero hz3]
  simp only [View.readAt_eq_ld, harg2.read_unread, harg4.read_unread, View.ld_unit_zero (S := S1x4096x256) hz3,
    View.ld_unit_zero (S := S1x1x128) hz3]

/-- A later tile: the group block is the previous contents plus the tile's group payload. -/
theorem out_B_3 (c : Dev nD) (i : grid0.Coords) (arg2 : Memref sig .tc .vmem S1x4096x256 .f32) (harg2 : arg2.IsWhole) (arg3 : Memref sig .tc .vmem S256x128 .bf16) (harg3 : arg3.IsWhole) (arg4 : Memref sig .tc .vmem S1x1x128 .f32) (harg4 : arg4.IsWhole) (arg5 : Memref sig .tc .vmem S1x1x128 .f32) (harg5 : arg5.IsWhole) (hc0 : ¬cond0_0 i)
    (x0 : Vec F S1x4096x256 .f32) (x1 : Vec F S256x128 .bf16) (xo2 : Vec F S1x1x128 .f32) (xo3 : Vec F S1x1x128 .f32) :
    out0_B_3 c i arg2 harg2 arg3 harg3 arg4 harg4 arg5 harg5 hc0 x0 x1 xo2 xo3 = k0_pay1 (k0_pay4 x0 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg5.read_unread, View.ld_unit_zero (S := S1x4096x256) hz3,
    View.ld_unit_zero (S := S256x128) hz2, View.ld_unit_zero (S := S1x1x128) hz3]

/-- A first tile: the log block is the log payload of the tile over the zero block. -/
theorem out_A_2 (c : Dev nD) (i : grid0.Coords) (arg2 : Memref sig .tc .vmem S1x4096x256 .f32) (harg2 : arg2.IsWhole) (arg3 : Memref sig .tc .vmem S256x128 .bf16) (harg3 : arg3.IsWhole) (arg4 : Memref sig .tc .vmem S1x1x128 .f32) (harg4 : arg4.IsWhole) (arg5 : Memref sig .tc .vmem S1x1x128 .f32) (harg5 : arg5.IsWhole) (hc0 : cond0_0 i)
    (x0 : Vec F S1x4096x256 .f32) (x1 : Vec F S256x128 .bf16) :
    out0_A_2 c i arg2 harg2 arg3 harg3 arg4 harg4 arg5 harg5 hc0 x0 x1 = k0_pay7 x0 (k0_pay5 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, View.ld_unit_zero (S := S1x4096x256) hz3]

/-- A first tile: the group block is the zero block plus the tile's group payload. -/
theorem out_A_3 (c : Dev nD) (i : grid0.Coords) (arg2 : Memref sig .tc .vmem S1x4096x256 .f32) (harg2 : arg2.IsWhole) (arg3 : Memref sig .tc .vmem S256x128 .bf16) (harg3 : arg3.IsWhole) (arg4 : Memref sig .tc .vmem S1x1x128 .f32) (harg4 : arg4.IsWhole) (arg5 : Memref sig .tc .vmem S1x1x128 .f32) (harg5 : arg5.IsWhole) (hc0 : cond0_0 i)
    (x0 : Vec F S1x4096x256 .f32) (x1 : Vec F S256x128 .bf16) :
    out0_A_3 c i arg2 harg2 arg3 harg3 arg4 harg4 arg5 harg5 hc0 x0 x1 = k0_pay1 (k0_pay4 x0 x1) (k0_pay6 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, View.ld_unit_zero (S := S1x4096x256) hz3,
    View.ld_unit_zero (S := S256x128) hz2]

end Cert.KernelIdeal.KValue

end
-- ==== Proof.Spec.lean ====
/-
  The quantities both programs compute, as functions of one row of logits over the extended reals.

  For a row `x : Fin 256 → EReal`:
    rmax x  = max over the classes of x (from −∞),
    rexp x c = exp (x c − rmax x),     rden x = Σ_c rexp x c,     rlog x = log (rden x),
    rprob x c = rexp x c / rden x                                   (the softmax probability).
  For a class-to-group indicator `w : Fin 256 → Fin K → EReal`:
    rgrp x w g = Σ_c rprob x c · w c g    (the mass of group g),
    rnorm x w  = Σ_g rgrp x w g,          rq x w g = rgrp x w g / rnorm x w.
  One program takes the probability as the quotient above, with K = 128 indicator columns; the other as
  exp (log-softmax), with K = 32 and every host sum started from the zero word: the `…R` forms.
  The two statistics the common tail consumes are  Σ_{b,n} rlog  and  Σ_n rq.
-/
import Idealize.ShloMosaic.PureOps.Ideal
import Idealize.ShloMosaic.Lib.ValueIdx

noncomputable section

namespace Cert.GroupedSoftmax

open Idealize.ShloMosaic

/-- The word both programs start a maximum from: −∞. -/
abbrev negInf : EReal := Ideal.ofBits .f32 0xFF800000#32
/-- The word both programs start a host sum from: 0. -/
abbrev zeroW : EReal := Ideal.ofBits .f32 0x00000000#32

/-! ## One row, the quotient form -/

/-- The row's maximum, folded from −∞. -/
def rmax (x : Fin 256 → EReal) : EReal := (Finset.univ : Finset (Fin 256)).fold max negInf x
/-- The shifted exponential of class `c`. -/
def rexp (x : Fin 256 → EReal) (c : Fin 256) : EReal := Ideal.exp (x c - rmax x)
/-- The softmax denominator. -/
def rden (x : Fin 256 → EReal) : EReal := ∑ c : Fin 256, rexp x c
/-- Its logarithm: minus the largest log-probability. -/
def rlog (x : Fin 256 → EReal) : EReal := Ideal.log (rden x)
/-- The softmax probability of class `c`. -/
def rprob (x : Fin 256 → EReal) (c : Fin 256) : EReal := Ideal.div (rexp x c) (rden x)
/-- The probability mass of group `g` under the indicator `w`. -/
def rgrp {K : ℕ} (x : Fin 256 → EReal) (w : Fin 256 → Fin K → EReal) (g : Fin K) : EReal :=
  ∑ c : Fin 256, rprob x c * w c g
/-- The total mass over the `K` indicator columns. -/
def rnorm {K : ℕ} (x : Fin 256 → EReal) (w : Fin 256 → Fin K → EReal) : EReal := ∑ g : Fin K, rgrp x w g
/-- The renormalised group probability. -/
def rq {K : ℕ} (x : Fin 256 → EReal) (w : Fin 256 → Fin K → EReal) (g : Fin K) : EReal :=
  Ideal.div (rgrp x w g) (rnorm x w)

/-! ## One row, the log-softmax form -/

/-- The maximum, joined once more with −∞. -/
def rmaxR (x : Fin 256 → EReal) : EReal := max negInf (rmax x)
/-- The shifted logit. -/
def rshR (x : Fin 256 → EReal) (c : Fin 256) : EReal := x c - rmaxR x
/-- The denominator as a host sum from the zero word. -/
def rdenR (x : Fin 256 → EReal) : EReal := zeroW + ∑ c : Fin 256, Ideal.exp (rshR x c)
/-- The log-probability of class `c`. -/
def rlogpR (x : Fin 256 → EReal) (c : Fin 256) : EReal := rshR x c - Ideal.log (rdenR x)
/-- The largest log-probability of the row, folded from −∞. -/
def rmaxlogpR (x : Fin 256 → EReal) : EReal := (Finset.univ : Finset (Fin 256)).fold max negInf (rlogpR x)
/-- The probability as the exponential of the log-probability. -/
def rprobR (x : Fin 256 → EReal) (c : Fin 256) : EReal := Ideal.exp (rlogpR x c)
/-- The mass of group `g` (a product contracted over the classes: no initial word). -/
def rgrpR {K : ℕ} (x : Fin 256 → EReal) (w : Fin 256 → Fin K → EReal) (g : Fin K) : EReal :=
  ∑ c : Fin 256, rprobR x c * w c g
/-- The total mass, a host sum from the zero word. -/
def rnormR {K : ℕ} (x : Fin 256 → EReal) (w : Fin 256 → Fin K → EReal) : EReal := zeroW + ∑ g : Fin K, rgrpR x w g
/-- The renormalised group probability. -/
def rqR {K : ℕ} (x : Fin 256 → EReal) (w : Fin 256 → Fin K → EReal) (g : Fin K) : EReal :=
  Ideal.div (rgrpR x w g) (rnormR x w)

/-! ## The indicator and the rows of the logits -/

/-- Class `c` belongs to group `g`: the comparison's bit, read as a number (0 or 1). -/
def hot (K : ℕ) (gid : Fin 256 → BitVec 32) (c : Fin 256) (g : Fin K) : EReal :=
  (((if gid c = BitVec.ofNat 32 g.val then 1#1 else 0#1 : BitVec 1).toNat : ℝ) : EReal)

/-- Row `n` of batch `b` of the logits. -/
def row (X : (⟨3, ![8, 32768, 256]⟩ : Shape).Idx → EReal) (b : Fin 8) (n : Fin 32768) : Fin 256 → EReal :=
  fun c => X (ValueIdx.ix3 b n c)

/-- Row `r` of tile `j`: row `4096 j + r` of the batch. -/
def tileRow (j : Fin 8) (r : Fin 4096) : Fin 32768 := ⟨4096 * j.val + r.val, by have := j.isLt; have := r.isLt; omega⟩

/-! ## The hypotheses the bridge uses -/

/-- Every logit is a real number. -/
def RealLogits (X : (⟨3, ![8, 32768, 256]⟩ : Shape).Idx → EReal) : Prop := ∀ i, ∃ ξ : ℝ, X i = (ξ : EReal)
/-- Every entry of a row is a real number. -/
def RealRow (x : Fin 256 → EReal) : Prop := ∀ c, ∃ ξ : ℝ, x c = (ξ : EReal)
/-- Every class's group id is one of the 32 groups. -/
def GroupRange (gid : Fin 256 → BitVec 32) : Prop := ∀ c, ∃ k : Fin 32, gid c = BitVec.ofNat 32 k.val

theorem RealLogits.row {X : (⟨3, ![8, 32768, 256]⟩ : Shape).Idx → EReal} (h : RealLogits X) (b : Fin 8) (n : Fin 32768) :
    RealRow (row X b n) := fun c => h (ValueIdx.ix3 b n c)

/-! ## The two statistics, as each program accumulates them -/

/-- Σ over the tile's rows of the log-denominator. -/
def tileLog (X : (⟨3, ![8, 32768, 256]⟩ : Shape).Idx → EReal) (b : Fin 8) (j : Fin 8) : EReal :=
  ∑ r : Fin 4096, rlog (row X b (tileRow j r))
/-- Σ over the tile's rows of the renormalised group probability (128 indicator columns). -/
def tileGrp (X : (⟨3, ![8, 32768, 256]⟩ : Shape).Idx → EReal) (gid : Fin 256 → BitVec 32) (b : Fin 8) (j : Fin 8)
    (g : Fin 128) : EReal :=
  ∑ r : Fin 4096, rq (row X b (tileRow j r)) (hot 128 gid) g

/-- The accumulated log-denominators of batch `b` after tiles `0 … k`, in accumulation order from the zero word. -/
def accLog (X : (⟨3, ![8, 32768, 256]⟩ : Shape).Idx → EReal) (b : Fin 8) : (k : ℕ) → k < 8 → EReal
  | 0, h => zeroW + tileLog X b ⟨0, h⟩
  | k + 1, h => accLog X b k (Nat.lt_of_succ_lt h) + tileLog X b ⟨k + 1, h⟩
/-- The accumulated group probabilities of batch `b`, group `g`, after tiles `0 … k`. -/
def accGrp (X : (⟨3, ![8, 32768, 256]⟩ : Shape).Idx → EReal) (gid : Fin 256 → BitVec 32) (b : Fin 8) (g : Fin 128) :
    (k : ℕ) → k < 8 → EReal
  | 0, h => zeroW + tileGrp X gid b ⟨0, h⟩ g
  | k + 1, h => accGrp X gid b g k (Nat.lt_of_succ_lt h) + tileGrp X gid b ⟨k + 1, h⟩ g

/-- The kernel-side cross-entropy statistic: the mean over all rows of the log-denominator. -/
def ceK (X : (⟨3, ![8, 32768, 256]⟩ : Shape).Idx → EReal) : EReal :=
  Ideal.div (zeroW + ∑ b : Fin 8, accLog X b 7 (by decide)) (Ideal.ofBits .f32 0x48800000#32)
/-- The kernel-side mean group probability of batch `b`, group `g < 32`. -/
def avgK (X : (⟨3, ![8, 32768, 256]⟩ : Shape).Idx → EReal) (gid : Fin 256 → BitVec 32) (b : Fin 8) (g : Fin 32) : EReal :=
  Ideal.div (accGrp X gid b ⟨g.val, by have := g.isLt; omega⟩ 7 (by decide)) (Ideal.ofBits .f32 0x47000000#32)

/-- The reference-side cross-entropy statistic: minus the mean of the largest log-probability. -/
def ceR (X : (⟨3, ![8, 32768, 256]⟩ : Shape).Idx → EReal) : EReal :=
  -(Ideal.div (zeroW + ∑ i : (⟨2, ![8, 32768]⟩ : Shape).Idx, rmaxlogpR (row X (i 0) (i 1))) (Ideal.ofBits .f32 0x48800000#32))
/-- The reference-side mean group probability of batch `b`, group `g`. -/
def avgR (X : (⟨3, ![8, 32768, 256]⟩ : Shape).Idx → EReal) (gid : Fin 256 → BitVec 32) (b : Fin 8) (g : Fin 32) : EReal :=
  Ideal.div (zeroW + ∑ n : Fin 32768, rqR (row X b n) (hot 32 gid) g) (Ideal.ofBits .f32 0x47000000#32)

end Cert.GroupedSoftmax

end
-- ==== Proof.KPayload.lean ====
/-
  The kernel body's arithmetic, read at an index over the extended reals. For the tile `v0` of 4096 rows
  and the indicator block `v13`:
    the group payload at lane g is  Σ_r rq (row r of v0) v13 g   (each row's renormalised group mass),
    the log payload at lane l is    prev l + Σ_r rlog (row r of v0),
    the accumulation payload is     prev l + partial l,  and the two reset payloads are the zero word.
-/
import proofs.«110291_j21131239096803_1_alg».proof.Proof.Gen.KernelIdeal.Skeleton
import proofs.«110291_j21131239096803_1_alg».proof.Proof.Spec
import Idealize.ShloMosaic.PureOps.Ideal.Laws
import Idealize.ShloMosaic.Lib.Pipeline.Value
import Idealize.ShloMosaic.Lib.ValueLayout

noncomputable section

namespace Cert.KernelIdeal.KPayload

open Cert.KernelIdeal Cert.KernelIdeal.Gen Cert.GroupedSoftmax Idealize.ShloMosaic Idealize.ShloMosaic.ValueIdx

/-- Row `r` of a tile of logits. -/
def tRow (v0 : Vec Ideal S1x4096x256 .f32) (r : Fin 4096) : Fin 256 → EReal := fun c => v0 (ix3 (0 : Fin 1) r c)
/-- An indicator block as a function of class and lane. -/
def tHot (v13 : Vec Ideal S256x128 .bf16) : Fin 256 → Fin 128 → EReal := fun c g => v13 (ix2 c g)

section Layout
variable {α : Type}

/-- A vector of `a` entries cast to one column reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Reductions

/-- The reduced index `r` with lane `k` put back is `(r, k)`. -/
theorem lift_lane {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The reduced index `g` with row `k` put back is `(k, g)`. -/
theorem lift_row {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

/-- A lane sum read at row `r`. -/
theorem laneSum_apply {m n : Nat} (src : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (r : Fin m) :
    multiReduction (F := Ideal) .add [1] ⟨1, ![m]⟩ src 0x00000000#32 h hφ hacc (ix1 r) = ∑ c : Fin n, src (ix2 r c) :=
  (Ideal.multiReduction_add_single src _ h hφ hacc (ix1 r)).trans
    (Finset.sum_congr rfl fun k _ => congrArg src (lift_lane h r k))

/-- A sum over the rows read at lane `g`. -/
theorem rowSum_apply {m n : Nat} (src : FVec Ideal ⟨2, ![m, n]⟩ .f32)
    (h : (⟨2, ![m, n]⟩ : Shape).Reduces [0] (⟨1, ![n]⟩ : Shape)) (hφ : FKind.Formats .f32)
    (hacc : (0x00000000#32 : BitVec 32) = FKind.add.neutral .f32 hφ) (g : Fin n) :
    multiReduction (F := Ideal) .add [0] ⟨1, ![n]⟩ src 0x00000000#32 h hφ hacc (ix1 g) = ∑ r : Fin m, src (ix2 r g) :=
  (Ideal.multiReduction_add_single src _ h hφ hacc (ix1 g)).trans
    (Finset.sum_congr rfl fun k _ => congrArg src (lift_row h g k))

/-- A lane maximum read at row `r`: the fold of `max` from −∞ over the row. -/
theorem laneMax_apply {m n : Nat} (src : FVec Ideal ⟨2, ![m, n]⟩ .f32)
    (h : (⟨2, ![m, n]⟩ : Shape).Reduces [1] (⟨1, ![m]⟩ : Shape)) (hφ : FKind.Formats .f32)
    (hacc : (0xFF800000#32 : BitVec 32) = FKind.maximumf.neutral .f32 hφ) (r : Fin m) :
    multiReduction (F := Ideal) .maximumf [1] ⟨1, ![m]⟩ src 0xFF800000#32 h hφ hacc (ix1 r)
      = (Finset.univ : Finset (Fin n)).fold max negInf (fun c => src (ix2 r c)) := by
  refine (Ideal.multiReduction_maximumf_single src _ h hφ hacc (ix1 r)).trans ?_
  have hf : (src ∘ h.lift (ix1 r)) = fun c : Fin n => src (ix2 r c) := funext fun k => congrArg src (lift_lane h r k)
  exact congrArg (fun f => Finset.fold max negInf f (Finset.univ : Finset (Fin n))) hf

end Reductions

section Rows

/-- The tile viewed as 4096 rows reads, at `(r, c)`, the row's entry. -/
theorem tile_apply (v0 : Vec Ideal S1x4096x256 .f32) (h : S1x4096x256.ShapeCasts S4096x256) (r : Fin 4096) (c : Fin 256) :
    (shapeCast S4096x256 v0 h (ix2 r c) : EReal) = tRow v0 r c :=
  shapeCast_1ab_ab_apply v0 h r c

/-- The shifted exponentials of the tile: at `(r, c)`, `exp (x c − max x)` for the row `x`. -/
theorem pay2_apply (v0 : Vec Ideal S1x4096x256 .f32) (r : Fin 4096) (c : Fin 256) :
    (k0_pay2 v0 (ix2 r c) : EReal) = rexp (tRow v0 r) c := by
  unfold k0_pay2
  refine congrArg Ideal.exp (congrArg₂ (· - ·) (tile_apply v0 _ r c) ?_)
  refine (broadcastTo_a1_ab_apply _ _ r c).trans ?_
  refine (shapeCast_a_a1_apply _ _ r (0 : Fin 1)).trans ?_
  refine (laneMax_apply _ _ _ _ r).trans ?_
  exact congrArg (fun f => Finset.fold max negInf f (Finset.univ : Finset (Fin 256))) (funext fun c' => tile_apply v0 _ r c')

/-- The softmax denominators of the tile: at `(r, 0)`, the sum of the row's shifted exponentials. -/
theorem pay3_apply (v0 : Vec Ideal S1x4096x256 .f32) (r : Fin 4096) :
    (k0_pay3 v0 (ix2 r (0 : Fin 1)) : EReal) = rden (tRow v0 r) := by
  unfold k0_pay3
  refine (shapeCast_a_a1_apply _ _ r (0 : Fin 1)).trans ?_
  refine (laneSum_apply _ _ _ _ r).trans ?_
  exact Finset.sum_congr rfl fun c _ => pay2_apply v0 r c

end Rows

section Contraction

theorem dot_lhs0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl

theorem dot_lhs1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q

theorem dot_rhs0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q

theorem dot_rhs1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The product into the zero block reads, at `(r, g)`, the sum over the classes of the operands' products. -/
theorem matmul_apply_rg (lhs : FVec Ideal S4096x256 .bf16) (rhs : FVec Ideal S256x128 .bf16) (r : Fin 4096) (g : Fin 128) :
    matmul dot_S4096x256_S256x128_S4096x128_1_0_0_1_n_n none lhs rhs (constant (F := Ideal) S4096x128 .f32 0x00000000#32) (ix2 r g)
      = ∑ k : Fin 256, lhs (ix2 r k) * rhs (ix2 k g) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r g) ((contrEquiv1 dot_S4096x256_S256x128_S4096x128_1_0_0_1_n_n 256 rfl rfl).symm k) = ix2 r k := funext fun a => Fin.ext (by
    match a with
    | ⟨0, _⟩ => exact dot_lhs0 _ _
    | ⟨1, _⟩ => exact (dot_lhs1 _ _).trans hk)
  have er : dot_S4096x256_S256x128_S4096x128_1_0_0_1_n_n.rhsIdx (ix2 r g) ((contrEquiv1 dot_S4096x256_S256x128_S4096x128_1_0_0_1_n_n 256 rfl rfl).symm k) = ix2 k g := funext fun a => Fin.ext (by
    match a with
    | ⟨0, _⟩ => exact (dot_rhs0 _ _).trans hk
    | ⟨1, _⟩ => exact dot_rhs1 _ _)
  rw [el, er]

end Contraction

section Groups

/-- The group masses of the tile: at `(r, g)`, the row's probabilities contracted with the indicator's lane `g`. -/
theorem grp_apply (v0 : Vec Ideal S1x4096x256 .f32) (v13 : FVec Ideal S256x128 .bf16)
    (hb : S4096x1.Broadcasts S4096x256) (ht : FTy.bits .bf16 < FTy.bits .f32) (hs : S256x128.ShapeCasts S256x128)
    (r : Fin 4096) (g : Fin 128) :
    matmul dot_S4096x256_S256x128_S4096x128_1_0_0_1_n_n none
        (truncf .bf16 (divf (k0_pay2 v0) (broadcastTo S4096x256 (k0_pay3 v0) hb)) ht) (shapeCast S256x128 v13 hs)
        (constant (F := Ideal) S4096x128 .f32 0x00000000#32) (ix2 r g)
      = rgrp (tRow v0 r) (tHot v13) g := by
  refine (matmul_apply_rg _ _ r g).trans ?_
  refine Finset.sum_congr rfl fun k _ => congrArg₂ (· * ·) ?_ ?_
  · exact congrArg₂ Ideal.div (pay2_apply v0 r k) ((broadcastTo_a1_ab_apply _ _ r k).trans (pay3_apply v0 r))
  · exact congrFun (shapeCast_self v13 hs) (ix2 k g)

/-- A block divided by its lane sums, kept as a column and spread back over the lanes. -/
theorem renorm_apply (G : FVec Ideal S4096x128 .f32) (h1 : S4096x128.Reduces [1] S4096) (hφ : FKind.Formats .f32)
    (hacc : (0x00000000#32 : BitVec 32) = FKind.add.neutral .f32 hφ) (h2 : S4096.ShapeCasts S4096x1)
    (h3 : S4096x1.Broadcasts S4096x128) (r : Fin 4096) (g : Fin 128) :
    divf G (broadcastTo S4096x128 (shapeCast S4096x1 (multiReduction (F := Ideal) .add [1] S4096 G 0x00000000#32 h1 hφ hacc) h2) h3) (ix2 r g)
      = Ideal.div (G (ix2 r g)) (∑ g' : Fin 128, G (ix2 r g')) :=
  congrArg (Ideal.div (G (ix2 r g)))
    ((broadcastTo_a1_ab_apply _ _ r g).trans ((shapeCast_a_a1_apply _ _ r (0 : Fin 1)).trans (laneSum_apply G h1 hφ hacc r)))

end Groups

section Logs

/-- An index of a one-column stack of one matrix is its row. -/
def colEquiv {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- The one entry of a one-entry vector, extracted and spread over a row, is that entry everywhere. -/
theorem extract_one_apply {α : Type} (x : S1.Idx → α) (h : S1.ShapeCasts S1x1x1)
    (hp : ∀ a, (![0, 0, 0] : Fin 3 → Nat) a < S1x1x1.size a) (i : S1x128.Idx) :
    broadcast S1x128 (extractAt ![0, 0, 0] (shapeCast S1x1x1 x h) hp) i = x (ix1 (0 : Fin 1)) := by
  show shapeCast S1x1x1 x h (fun a => ⟨(![0, 0, 0] : Fin 3 → Nat) a, hp a⟩) = x (ix1 (0 : Fin 1))
  exact shapeCast_apply x h _ _ (by rw [Shape.rowMajor_val_one, Shape.rowMajor_val_three]; rfl)

/-- The sum of a one-column block over both of its long axes is the sum over its rows. -/
theorem total_apply (src : FVec Ideal S1x4096x1 .f32) (h : S1x4096x1.Reduces [1, 2] S1) (hφ : FKind.Formats .f32)
    (hacc : (0x00000000#32 : BitVec 32) = FKind.add.neutral .f32 hφ) (j : S1.Idx) :
    multiReduction (F := Ideal) .add [1, 2] S1 src 0x00000000#32 h hφ hacc j
      = ∑ r : Fin 4096, src (ix3 (0 : Fin 1) r (0 : Fin 1)) :=
  (Ideal.multiReduction_add_total src _ h (fun b => by fin_cases b; rfl) hφ hacc j).trans
    (Equiv.sum_comp (colEquiv (n := 4096)).symm src).symm

end Logs

theorem pay5_apply (l : Fin 128) : (k0_pay5 (F := Ideal) (ix3 (0 : Fin 1) (0 : Fin 1) l) : EReal) = zeroW := by
  unfold k0_pay5
  exact shapeCast_ab_1ab_apply _ _ (0 : Fin 1) (0 : Fin 1) l

theorem pay6_apply (l : Fin 128) : (k0_pay6 (F := Ideal) (ix3 (0 : Fin 1) (0 : Fin 1) l) : EReal) = zeroW := by
  unfold k0_pay6
  exact shapeCast_ab_1ab_apply _ _ (0 : Fin 1) (0 : Fin 1) l

theorem pay1_apply (v25 : FVec Ideal S1x128 .f32) (v36 : Vec Ideal S1x1x128 .f32) (l : Fin 128) :
    (k0_pay1 v25 v36 (ix3 (0 : Fin 1) (0 : Fin 1) l) : EReal) = v36 (ix3 (0 : Fin 1) (0 : Fin 1) l) + v25 (ix2 (0 : Fin 1) l) := by
  unfold k0_pay1
  refine (shapeCast_ab_1ab_apply _ _ (0 : Fin 1) (0 : Fin 1) l).trans ?_
  refine (addf_apply _ _ _).trans ?_
  exact congrArg (· + v25 (ix2 (0 : Fin 1) l)) (shapeCast_1ab_ab_apply v36 _ (0 : Fin 1) l)

theorem pay7_apply (v0 : Vec Ideal S1x4096x256 .f32) (v29 : Vec Ideal S1x1x128 .f32) (l : Fin 128) :
    (k0_pay7 v0 v29 (ix3 (0 : Fin 1) (0 : Fin 1) l) : EReal)
      = v29 (ix3 (0 : Fin 1) (0 : Fin 1) l) + ∑ r : Fin 4096, rlog (tRow v0 r) := by
  unfold k0_pay7
  refine (shapeCast_ab_1ab_apply _ _ (0 : Fin 1) (0 : Fin 1) l).trans ?_
  refine congrArg₂ (· + ·) (shapeCast_1ab_ab_apply v29 _ (0 : Fin 1) l) ?_
  refine (extract_one_apply _ _ _ _).trans ?_
  refine (total_apply _ _ (.inl rfl) rfl _).trans ?_
  refine Finset.sum_congr rfl fun r _ => ?_
  refine (shapeCast_ab_1ab_apply _ _ (0 : Fin 1) r (0 : Fin 1)).trans ?_
  exact congrArg Ideal.log (pay3_apply v0 r)

theorem pay4_apply (v0 : Vec Ideal S1x4096x256 .f32) (v13 : Vec Ideal S256x128 .bf16) (g : Fin 128) :
    (k0_pay4 v0 v13 (ix2 (0 : Fin 1) g) : EReal) = ∑ r : Fin 4096, rq (tRow v0 r) (tHot v13) g := by
  unfold k0_pay4
  refine (shapeCast_a_1a_apply _ _ (0 : Fin 1) g).trans ?_
  refine (rowSum_apply _ _ _ _ g).trans ?_
  refine Finset.sum_congr rfl fun r _ => ?_
  refine (renorm_apply _ _ _ _ _ _ r g).trans ?_
  exact congrArg₂ Ideal.div (grp_apply v0 v13 _ _ _ r g) (Finset.sum_congr rfl fun g' _ => grp_apply v0 v13 _ _ _ r g')

end Cert.KernelIdeal.KPayload

end
-- ==== Proof.OneHot.lean ====
/-
  The indicator block the kernel's region finds: the host operations before the call compare each class's
  group id with the lane number 0 … 127 and convert the bit to a number.
-/
import proofs.«110291_j21131239096803_1_alg».proof.Proof.Gen.KernelIdeal.Frame.Runs
import proofs.«110291_j21131239096803_1_alg».proof.Proof.Spec
import Idealize.ShloMosaic.Lib.Pipeline.Value
import Idealize.ShloMosaic.Lib.StableHlo.Run
import Idealize.ShloMosaic.Lib.IdealHost

noncomputable section

namespace Cert.KernelIdeal.OneHot

open Cert.KernelIdeal Cert.KernelIdeal.Gen Cert.GroupedSoftmax Idealize.ShloMosaic Idealize.ShloMosaic.TcCoe Idealize.SL.Sem
open Idealize.ShloMosaic.ValueIdx

/-- A column of words broadcast to a one-column matrix and then across 128 lanes reads the word of its row. -/
private theorem bcast_col_apply (h0 : S256.BroadcastsInDim S256x1 ![0]) (h1 : S256x1.BroadcastsInDim S256x128 ![0, 1])
    (x : S256.Idx → BitVec 32) (k : Fin 256) (g : Fin 128) :
    broadcastInDim S256x128 ![0, 1] h1 (broadcastInDim S256x1 ![0] h0 x) (ix2 k g) = x (ix1 k) := by
  refine (broadcastInDim_apply ![0, 1] h1 _ (ix2 k g) (ix2 k (0 : Fin 1)) ?_).trans
    (broadcastInDim_apply ![0] h0 x (ix2 k (0 : Fin 1)) (ix1 k) ?_)
  · intro a
    fin_cases a <;> rfl
  · intro a
    fin_cases a <;> rfl

/-- A row of words broadcast to a one-row matrix and then down 256 rows reads the word of its lane. -/
private theorem bcast_row_apply (h0 : S128.BroadcastsInDim S1x128 ![1]) (h1 : S1x128.BroadcastsInDim S256x128 ![0, 1])
    (y : S128.Idx → BitVec 32) (k : Fin 256) (g : Fin 128) :
    broadcastInDim S256x128 ![0, 1] h1 (broadcastInDim S1x128 ![1] h0 y) (ix2 k g) = y (ix1 g) := by
  refine (broadcastInDim_apply ![0, 1] h1 _ (ix2 k g) (ix2 (0 : Fin 1) g) ?_).trans
    (broadcastInDim_apply ![1] h0 y (ix2 (0 : Fin 1) g) (ix1 g) ?_)
  · intro a
    fin_cases a <;> rfl
  · intro a
    fin_cases a <;> rfl

/-- The comparison's bit, read as a number, is the indicator of equality. -/
private theorem eq_bit (x y : BitVec 32) :
    (((IntOp.cmpi .eq x y).toNat : ℝ) : EReal) = (((if x = y then 1#1 else 0#1 : BitVec 1).toNat : ℝ) : EReal) := by
  by_cases h : x = y
  · simp [IntOp.cmpi, h]
  · simp [IntOp.cmpi, h]

theorem V_onehot (m : (ℓ : Loc nD τ sig) → Buf (Elt Ideal) ℓ) (c : Dev nD) (k : Fin 256) (g : Fin 128) :
    (V m c main_v6 (ix2 k g) : EReal) = hot 128 (fun k' => m ((c : Thread nD τ).loc main_arg2) (ix1 k')) k g := by
  have e : (V m c main_v6 : S256x128.Idx → EReal) =
      uitofp (F := Ideal) .bf16 (cmpi .eq
        (broadcastInDim S256x128 ![0, 1] bcast_S256x1_S256x128_0_1
          (broadcastInDim S256x1 ![0] bcast_S256_S256x1_0 (m ((c : Thread nD τ).loc main_arg2) : S256.Idx → BitVec 32)))
        (broadcastInDim S256x128 ![0, 1] bcast_S1x128_S256x128_0_1
          (broadcastInDim S1x128 ![1] bcast_S128_S1x128_1 (iotaInDim S128 32 0)))) := by
    show StableHlo.after hostOps0 (fun b => m (c, b)) (Proc.devRef .tc main_v6) = _
    after_results
  refine (congrFun e (ix2 k g)).trans ?_
  show (((IntOp.cmpi .eq
      (broadcastInDim S256x128 ![0, 1] bcast_S256x1_S256x128_0_1
        (broadcastInDim S256x1 ![0] bcast_S256_S256x1_0 (m ((c : Thread nD τ).loc main_arg2) : S256.Idx → BitVec 32)) (ix2 k g))
      (broadcastInDim S256x128 ![0, 1] bcast_S1x128_S256x128_0_1
        (broadcastInDim S1x128 ![1] bcast_S128_S1x128_1 (iotaInDim S128 32 0)) (ix2 k g))).toNat : ℝ) : EReal) = _
  rw [bcast_col_apply, bcast_row_apply]
  exact eq_bit _ _

end Cert.KernelIdeal.OneHot

end
-- ==== Proof.KAccum.lean ====
/-
  The two output blocks after each grid point, as values. Point 8b + k is tile k of batch b: its input block
  is rows 4096k … 4096k + 4095 of batch b and its indicator block is the whole indicator array. By induction on k
  the log block holds, in every lane, the sum over tiles 0 … k of the tile's summed log-denominators (from the zero
  word, in accumulation order), and the group block holds in lane g the same accumulation of the tile's summed
  renormalised group probabilities.
-/
import proofs.«110291_j21131239096803_1_alg».proof.Proof.KPieces
import proofs.«110291_j21131239096803_1_alg».proof.Proof.KPayload
import proofs.«110291_j21131239096803_1_alg».proof.Proof.OneHot

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.KernelIdeal.KPayload Cert.KernelIdeal.OneHot Cert.GroupedSoftmax

variable (m : (ℓ : Loc nD τ sig) → Buf (Elt Ideal) ℓ)

/-- The logits, as launched. -/
abbrev Xk (c : Dev nD) : (⟨3, ![8, 32768, 256]⟩ : Shape).Idx → EReal := m ((c : Thread nD τ).loc main_arg0)
/-- The group ids, as launched. -/
abbrev gidk (c : Dev nD) : Fin 256 → BitVec 32 := fun k => m ((c : Thread nD τ).loc main_arg2) (ix1 k)

theorem N64 : cfg0.N = 64 := N_0

/-- Point 8b + k is a point of the grid. -/
theorem pt_lt (b : Fin 8) (k : ℕ) (hk : k < 8) : 8 * b.val + k < cfg0.N := by
  rw [N64]; have := b.isLt; omega

/-- The printed index maps, decided once over the grid: the logits' block index is (batch, tile, 0), the indicator's
    is (0, 0), both outputs' is (batch, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- Row r of the logits' block at point 8b + k is row 4096k + r of batch b. -/
theorem row_blk (c : Dev nD) (b : Fin 8) (k : ℕ) (hk : k < 8) (r : Fin 4096) :
    tRow (iblk m c 0 ⟨8 * b.val + k, pt_lt b k hk⟩) r = row (Xk m c) b (tileRow ⟨k, hk⟩ r) := by
  obtain ⟨e0, e1, e2, -⟩ := idx_facts ⟨8 * b.val + k, pt_lt b k hk⟩
  have hb := b.isLt
  funext q
  unfold tRow row iblk
  rw [View.read_apply]
  show V m c main_arg0 _ = m ((c : Thread nD τ).loc main_arg0) _
  rw [V_main_arg0]
  congr 1
  funext a
  apply Fin.ext
  match a with
  | ⟨0, _⟩ => show win0_0.index ⟨8 * b.val + k, pt_lt b k hk⟩ (0 : Fin 3) * 1 + 1 * 0 = b.val; rw [e0]; show (8 * b.val + k) / 8 * 1 + 1 * 0 = b.val; omega
  | ⟨1, _⟩ => show win0_0.index ⟨8 * b.val + k, pt_lt b k hk⟩ (1 : Fin 3) * 4096 + 1 * r.val = 4096 * k + r.val; rw [e1]; show (8 * b.val + k) % 8 * 4096 + 1 * r.val = 4096 * k + r.val; omega
  | ⟨2, _⟩ => show win0_0.index ⟨8 * b.val + k, pt_lt b k hk⟩ (2 : Fin 3) * 256 + 1 * q.val = q.val; rw [e2]; omega

/-- The indicator's block at every point is the indicator of the launched group ids. -/
theorem hot_blk (c : Dev nD) (t : Fin cfg0.N) : tHot (iblk m c 1 t) = hot 128 (gidk m c) := by
  obtain ⟨-, -, -, e3, e4, -⟩ := idx_facts t
  funext q g
  unfold tHot iblk
  rw [View.read_apply]
  refine Eq.trans ?_ (V_onehot m c q g)
  show V m c main_v6 _ = V m c main_v6 _
  congr 1
  funext a
  apply Fin.ext
  match a with
  | ⟨0, _⟩ => show win0_1.index t (0 : Fin 2) * 256 + 1 * q.val = q.val; rw [e3]; omega
  | ⟨1, _⟩ => show win0_1.index t (1 : Fin 2) * 128 + 1 * g.val = g.val; rw [e4]; omega

/-- The tile's summed log-denominators, read off the block. -/
theorem tileLog_blk (c : Dev nD) (b : Fin 8) (k : ℕ) (hk : k < 8) :
    ∑ r : Fin 4096, rlog (tRow (iblk m c 0 ⟨8 * b.val + k, pt_lt b k hk⟩) r) = tileLog (Xk m c) b ⟨k, hk⟩ :=
  Finset.sum_congr rfl fun r _ => congrArg rlog (row_blk m c b k hk r)

/-- The tile's summed group probabilities at lane g, read off the blocks. -/
theorem tileGrp_blk (c : Dev nD) (b : Fin 8) (k : ℕ) (hk : k < 8) (g : Fin 128) :
    ∑ r : Fin 4096, rq (tRow (iblk m c 0 ⟨8 * b.val + k, pt_lt b k hk⟩) r) (tHot (iblk m c 1 ⟨8 * b.val + k, pt_lt b k hk⟩)) g
      = tileGrp (Xk m c) (gidk m c) b ⟨k, hk⟩ g := by
  rw [hot_blk m c ⟨8 * b.val + k, pt_lt b k hk⟩]
  exact Finset.sum_congr rfl fun r _ => congrArg (fun x => rq x (hot 128 (gidk m c)) g) (row_blk m c b k hk r)

/-- The point's number is all `outsAt0` depends on. -/
theorem outsAt0_congr (c : Dev nD) {n n' : ℕ} (e : n = n') (h : n < cfg0.N) (h' : n' < cfg0.N) :
    outsAt0 m c n h = outsAt0 m c n' h' := by subst e; rfl

/-- THE ACCUMULATION: after point 8b + k both blocks hold the specification's running sums. -/
theorem outs_eq (c : Dev nD) (b : Fin 8) : ∀ (k : ℕ) (hk : k < 8) (l : Fin 128),
    ((outsAt0 m c (8 * b.val + k) (pt_lt b k hk)).1 (ix3 (0 : Fin 1) (0 : Fin 1) l) : EReal) = accLog (Xk m c) b k hk
    ∧ ((outsAt0 m c (8 * b.val + k) (pt_lt b k hk)).2 (ix3 (0 : Fin 1) (0 : Fin 1) l) : EReal) = accGrp (Xk m c) (gidk m c) b l k hk
  | 0, hk, l => by
    have h0 : (⟨8 * b.val + 0, pt_lt b 0 hk⟩ : Fin cfg0.N).val % 8 = 0 := by show (8 * b.val + 0) % 8 = 0; omega
    have hA := outsAt0_A m c ⟨8 * b.val + 0, pt_lt b 0 hk⟩ h0
    refine ⟨?_, ?_⟩
    · refine (congrFun (congrArg Prod.fst hA) (ix3 (0 : Fin 1) (0 : Fin 1) l)).trans ?_
      dsimp only
      rw [out_A_2]
      refine (pay7_apply (iblk m c 0 ⟨8 * b.val + 0, pt_lt b 0 hk⟩) (k0_pay5 (F := Ideal)) l).trans ?_
      exact congrArg₂ (· + ·) (pay5_apply l) (tileLog_blk m c b 0 hk)
    · refine (congrFun (congrArg Prod.snd hA) (ix3 (0 : Fin 1) (0 : Fin 1) l)).trans ?_
      dsimp only
      rw [out_A_3]
      refine (pay1_apply (k0_pay4 (iblk m c 0 ⟨8 * b.val + 0, pt_lt b 0 hk⟩) (iblk m c 1 ⟨8 * b.val + 0, pt_lt b 0 hk⟩)) (k0_pay6 (F := Ideal)) l).trans ?_
      exact congrArg₂ (· + ·) (pay6_apply l)
        ((pay4_apply (iblk m c 0 ⟨8 * b.val + 0, pt_lt b 0 hk⟩) (iblk m c 1 ⟨8 * b.val + 0, pt_lt b 0 hk⟩) l).trans (tileGrp_blk m c b 0 hk l))
  | k + 1, hk, l => by
    have hb := b.isLt
    have hB : ¬(⟨8 * b.val + (k + 1), pt_lt b (k + 1) hk⟩ : Fin cfg0.N).val % 8 = 0 := by show ¬(8 * b.val + (k + 1)) % 8 = 0; omega
    have hBe := outsAt0_B m c ⟨8 * b.val + (k + 1), pt_lt b (k + 1) hk⟩ hB
    have hpred : (⟨8 * b.val + (k + 1), pt_lt b (k + 1) hk⟩ : Fin cfg0.N).val - 1 = 8 * b.val + k := by show 8 * b.val + (k + 1) - 1 = 8 * b.val + k; omega
    have hprev := fun l' => outs_eq c b k (Nat.lt_of_succ_lt hk) l'
    refine ⟨?_, ?_⟩
    · refine (congrFun (congrArg Prod.fst hBe) (ix3 (0 : Fin 1) (0 : Fin 1) l)).trans ?_
      dsimp only
      rw [out_B_2]
      refine (pay7_apply (iblk m c 0 ⟨8 * b.val + (k + 1), pt_lt b (k + 1) hk⟩) _ l).trans ?_
      refine congrArg₂ (· + ·) ?_ (tileLog_blk m c b (k + 1) hk)
      rw [outsAt0_congr m c hpred _ (pt_lt b k (Nat.lt_of_succ_lt hk))]
      exact (hprev l).1
    · refine (congrFun (congrArg Prod.snd hBe) (ix3 (0 : Fin 1) (0 : Fin 1) l)).trans ?_
      dsimp only
      rw [out_B_3]
      refine (pay1_apply (k0_pay4 (iblk m c 0 ⟨8 * b.val + (k + 1), pt_lt b (k + 1) hk⟩) (iblk m c 1 ⟨8 * b.val + (k + 1), pt_lt b (k + 1) hk⟩)) _ l).trans ?_
      refine congrArg₂ (· + ·) ?_
        ((pay4_apply (iblk m c 0 ⟨8 * b.val + (k + 1), pt_lt b (k + 1) hk⟩) (iblk m c 1 ⟨8 * b.val + (k + 1), pt_lt b (k + 1) hk⟩) l).trans (tileGrp_blk m c b (k + 1) hk l))
      rw [outsAt0_congr m c hpred _ (pt_lt b k (Nat.lt_of_succ_lt hk))]
      exact (hprev l).2

end Cert.KernelIdeal.KValue

end
-- ==== Proof.KFinal.lean ====
/-
  The two output arrays after the run. Each block (batch b) is written back once, after the batch's last tile,
  and the eight blocks tile the array: the log array holds at (b, 0, lane) the batch's accumulated
  log-denominators and the group array holds at (b, 0, g) the batch's accumulated renormalised group probabilities.
-/
import proofs.«110291_j21131239096803_1_alg».proof.Proof.KAccum

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.KernelIdeal.KPayload Cert.GroupedSoftmax

variable (m : (ℓ : Loc nD τ sig) → Buf (Elt Ideal) ℓ)

/-- The log array: every lane of batch b holds the batch's accumulated log-denominators. -/
abbrev G2 (c : Dev nD) : S8x1x128.Idx → EReal := fun i => accLog (Xk m c) ⟨(i 0).val, (i 0).isLt⟩ 7 (by decide)
/-- The group array: lane g of batch b holds the batch's accumulated group probabilities. -/
abbrev G3 (c : Dev nD) : S8x1x128.Idx → EReal :=
  fun i => accGrp (Xk m c) (gidk m c) ⟨(i 0).val, (i 0).isLt⟩ ⟨(i 2).val, (i 2).isLt⟩ 7 (by decide)

/-- An index of output 2's array is in point `t`'s block iff each coordinate is in the block's range on its axis. -/
theorem mem_blk2 (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v7_0).slice (win0_2.rect t)).set ↔ _
  rw [View.set_slice_whole, Rect.mem_set_unit]
  exact Iff.rfl

/-- What a writing-back point (the last tile of its batch) writes back is its block of `G2`. -/
theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : t.val < 64 := lt_of_lt_of_eq t.isLt N64
  obtain ⟨-, -, -, -, -, q0, q1, q2, -⟩ := idx_facts t
  have hb : t.val / 8 < 8 := by omega
  have ht : t.val = 8 * (⟨t.val / 8, hb⟩ : Fin 8).val + 7 := by show t.val = 8 * (t.val / 8) + 7; omega
  show (cfg0.win 2).cut (grid0.coords t) ((dats m 0 c).after 2 t) = _
  rw [after0_2]
  funext y
  obtain ⟨y0, y1, l, rfl⟩ : ∃ (y0 : Fin 1) (y1 : Fin 1) (l : Fin 128), y = ix3 y0 y1 l := ⟨y 0, y 1, y 2, eq_ix3 y⟩
  obtain rfl : y0 = 0 := Subsingleton.elim _ _
  obtain rfl : y1 = 0 := Subsingleton.elim _ _
  show (outsAt0 m c t.val t.isLt).1 (ix3 (0 : Fin 1) (0 : Fin 1) l) = G2 m c (((cfg0.win 2).blk t).view.emb (ix3 (0 : Fin 1) (0 : Fin 1) l))
  rw [outsAt0_congr m c ht t.isLt (pt_lt ⟨t.val / 8, hb⟩ 7 (by decide))]
  refine ((outs_eq m c ⟨t.val / 8, hb⟩ 7 (by decide) l).1).trans ?_
  show accLog (Xk m c) ⟨t.val / 8, hb⟩ 7 _ = accLog (Xk m c) ⟨_, _⟩ 7 _
  refine congrArg (fun b' : Fin 8 => accLog (Xk m c) b' 7 (by decide)) (Fin.ext ?_)
  show t.val / 8 = win0_2.index t (0 : Fin 3) * 1 + 1 * 0
  rw [q0]; omega

/-- Every index of output 2's array is in the block of its batch's last tile. -/
theorem cover2 (i : S8x1x128.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 128 := (i 2).isLt
  have hlt : 8 * (i 0).val + 7 < cfg0.N := by rw [N64]; omega
  obtain ⟨-, -, -, -, -, q0, q1, q2, -⟩ := idx_facts ⟨8 * (i 0).val + 7, hlt⟩
  refine ⟨⟨8 * (i 0).val + 7, hlt⟩, (flush0_2 _).mpr (by show (8 * (i 0).val + 7) % 8 = 7; omega), ?_⟩
  rw [mem_blk2]
  intro a
  match a with
  | ⟨0, _⟩ => show win0_2.index ⟨8 * (i 0).val + 7, hlt⟩ (0 : Fin 3) * 1 ≤ (i 0).val ∧ (i 0).val < win0_2.index ⟨8 * (i 0).val + 7, hlt⟩ (0 : Fin 3) * 1 + 1; rw [q0]; show (8 * (i 0).val + 7) / 8 * 1 ≤ (i 0).val ∧ (i 0).val < (8 * (i 0).val + 7) / 8 * 1 + 1; omega
  | ⟨1, _⟩ => show win0_2.index ⟨8 * (i 0).val + 7, hlt⟩ (1 : Fin 3) * 1 ≤ (i 1).val ∧ (i 1).val < win0_2.index ⟨8 * (i 0).val + 7, hlt⟩ (1 : Fin 3) * 1 + 1; rw [q1]; omega
  | ⟨2, _⟩ => show win0_2.index ⟨8 * (i 0).val + 7, hlt⟩ (2 : Fin 3) * 128 ≤ (i 2).val ∧ (i 2).val < win0_2.index ⟨8 * (i 0).val + 7, hlt⟩ (2 : Fin 3) * 128 + 128; rw [q2]; omega

/-- Output 2's array after the run. -/
theorem final2 (c : Dev nD) : (dats m 0 c).arrAt 2 cfg0.N = G2 m c :=
  (dats m 0 c).arrAt_eq_of_cover 2 (G2 m c) (flushed2_eq m c) cover2

/-- An index of output 3's array is in point `t`'s block iff each coordinate is in the block's range on its axis. -/
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v7_1).slice (win0_3.rect t)).set ↔ _
  rw [View.set_slice_whole, Rect.mem_set_unit]
  exact Iff.rfl

/-- What a writing-back point (the last tile of its batch) writes back is its block of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : t.val < 64 := lt_of_lt_of_eq t.isLt N64
  obtain ⟨-, -, -, -, -, -, -, -, q0, q1, q2⟩ := idx_facts t
  have hb : t.val / 8 < 8 := by omega
  have ht : t.val = 8 * (⟨t.val / 8, hb⟩ : Fin 8).val + 7 := by show t.val = 8 * (t.val / 8) + 7; omega
  show (cfg0.win 3).cut (grid0.coords t) ((dats m 0 c).after 3 t) = _
  rw [after0_3]
  funext y
  obtain ⟨y0, y1, l, rfl⟩ : ∃ (y0 : Fin 1) (y1 : Fin 1) (l : Fin 128), y = ix3 y0 y1 l := ⟨y 0, y 1, y 2, eq_ix3 y⟩
  obtain rfl : y0 = 0 := Subsingleton.elim _ _
  obtain rfl : y1 = 0 := Subsingleton.elim _ _
  show (outsAt0 m c t.val t.isLt).2 (ix3 (0 : Fin 1) (0 : Fin 1) l) = G3 m c (((cfg0.win 3).blk t).view.emb (ix3 (0 : Fin 1) (0 : Fin 1) l))
  rw [outsAt0_congr m c ht t.isLt (pt_lt ⟨t.val / 8, hb⟩ 7 (by decide))]
  refine ((outs_eq m c ⟨t.val / 8, hb⟩ 7 (by decide) l).2).trans ?_
  show accGrp (Xk m c) (gidk m c) ⟨t.val / 8, hb⟩ l 7 _ = accGrp (Xk m c) (gidk m c) ⟨_, _⟩ ⟨_, _⟩ 7 _
  have eb : (⟨t.val / 8, hb⟩ : Fin 8) = ⟨(((cfg0.win 3).blk t).view.emb (ix3 (0 : Fin 1) (0 : Fin 1) l) 0).val, (((cfg0.win 3).blk t).view.emb (ix3 (0 : Fin 1) (0 : Fin 1) l) 0).isLt⟩ := by
    apply Fin.ext
    show t.val / 8 = win0_3.index t (0 : Fin 3) * 1 + 1 * 0
    rw [q0]; omega
  have el : l = ⟨(((cfg0.win 3).blk t).view.emb (ix3 (0 : Fin 1) (0 : Fin 1) l) 2).val, (((cfg0.win 3).blk t).view.emb (ix3 (0 : Fin 1) (0 : Fin 1) l) 2).isLt⟩ := by
    apply Fin.ext
    show l.val = win0_3.index t (2 : Fin 3) * 128 + 1 * l.val
    rw [q2]; omega
  exact congrArg₂ (fun (b' : Fin 8) (l' : Fin 128) => accGrp (Xk m c) (gidk m c) b' l' 7 (by decide)) eb el

/-- Every index of output 3's array is in the block of its batch's last tile. -/
theorem cover3 (i : S8x1x128.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 128 := (i 2).isLt
  have hlt : 8 * (i 0).val + 7 < cfg0.N := by rw [N64]; omega
  obtain ⟨-, -, -, -, -, -, -, -, q0, q1, q2⟩ := idx_facts ⟨8 * (i 0).val + 7, hlt⟩
  refine ⟨⟨8 * (i 0).val + 7, hlt⟩, (flush0_3 _).mpr (by show (8 * (i 0).val + 7) % 8 = 7; omega), ?_⟩
  rw [mem_blk3]
  intro a
  match a with
  | ⟨0, _⟩ => show win0_3.index ⟨8 * (i 0).val + 7, hlt⟩ (0 : Fin 3) * 1 ≤ (i 0).val ∧ (i 0).val < win0_3.index ⟨8 * (i 0).val + 7, hlt⟩ (0 : Fin 3) * 1 + 1; rw [q0]; show (8 * (i 0).val + 7) / 8 * 1 ≤ (i 0).val ∧ (i 0).val < (8 * (i 0).val + 7) / 8 * 1 + 1; omega
  | ⟨1, _⟩ => show win0_3.index ⟨8 * (i 0).val + 7, hlt⟩ (1 : Fin 3) * 1 ≤ (i 1).val ∧ (i 1).val < win0_3.index ⟨8 * (i 0).val + 7, hlt⟩ (1 : Fin 3) * 1 + 1; rw [q1]; omega
  | ⟨2, _⟩ => show win0_3.index ⟨8 * (i 0).val + 7, hlt⟩ (2 : Fin 3) * 128 ≤ (i 2).val ∧ (i 2).val < win0_3.index ⟨8 * (i 0).val + 7, hlt⟩ (2 : Fin 3) * 128 + 128; rw [q2]; omega

/-- Output 3's array after the run. -/
theorem final3 (c : Dev nD) : (dats m 0 c).arrAt 3 cfg0.N = G3 m c :=
  (dats m 0 c).arrAt_eq_of_cover 3 (G3 m c) (flushed3_eq m c) cover3

end Cert.KernelIdeal.KValue

end
-- ==== Proof.TailDef.lean ====
/-
  The tail both programs end with, as one function of the mean group probabilities `avg` [8,32], the
  differentials `x1` [8,1,32] and the cross-entropy statistic `ce`:
    t = softmax of x1 along its last axis,   kl(b) = (Σ_g t(b,g) · (log t(b,g) − log avg(b,g))) / 32,
    result = (Σ_b kl(b)) / 8 + 0.1 · ce.
  It is never opened: the two programs are compared on what goes into it.
-/
import proofs.«110291_j21131239096803_1_alg».proof.KernelIdeal
import proofs.«110291_j21131239096803_1_alg».proof.Proof.Gen.KernelIdeal
import Idealize.ShloMosaic.PureOps.Ideal

noncomputable section

namespace Cert.KernelIdeal.KValue

open Cert.KernelIdeal Cert.KernelIdeal.Facts₀ Idealize.ShloMosaic

/-- The common tail. -/
def tail (avg : FVec Ideal S8x32 .f32) (x1 : FVec Ideal S8x1x32 .f32) (ce : FVec Ideal S_ .f32) : FVec Ideal S_ .f32 :=
  let v16 : FVec Ideal S8x1 .f32 := Host.reduce FloatOps.maximumf x1 (constant (F := Ideal) S_ .f32 0xFF800000#32) reducesTo_S8x1x32_S8x1_d2 h_S_
  let v17 : FVec Ideal S8x1 .f32 := broadcastInDim S8x1 ![] bcast_S_S8x1 (constant (F := Ideal) S_ .f32 0xFF800000#32)
  let v18 : FVec Ideal S8x1 .f32 := maximumf v17 v16
  let v19 : FVec Ideal S8x1x1 .f32 := broadcastInDim S8x1x1 ![0, 1] bcast_S8x1_S8x1x1_0_1 v18
  let v20 : FVec Ideal S8x1x32 .f32 := broadcastInDim S8x1x32 ![0, 1, 2] bcast_S8x1x1_S8x1x32_0_1_2 v19
  let v21 : FVec Ideal S8x1x32 .f32 := subf x1 v20
  let v22 : FVec Ideal S8x1x32 .f32 := Host.exp v21
  let v23 : FVec Ideal S8x1 .f32 := Host.reduceAdd v22 (constant (F := Ideal) S_ .f32 0x00000000#32) reducesTo_S8x1x32_S8x1_d2 h_S_
  let v24 : FVec Ideal S8x1x1 .f32 := broadcastInDim S8x1x1 ![0, 1] bcast_S8x1_S8x1x1_0_1 v23
  let v25 : FVec Ideal S8x1x32 .f32 := broadcastInDim S8x1x32 ![0, 1, 2] bcast_S8x1x1_S8x1x32_0_1_2 v24
  let v26 : FVec Ideal S8x1x32 .f32 := Host.divf v22 v25
  let v27 : FVec Ideal S8x32 .f32 := shapeCast S8x32 v26 shapeCasts_S8x1x32_S8x32
  let v28 : FVec Ideal S8x32 .f32 := Host.log v27
  let v29 : FVec Ideal S8x32 .f32 := Host.log avg
  let v30 : FVec Ideal S8x32 .f32 := subf v28 v29
  let v31 : FVec Ideal S8x32 .f32 := mulf v27 v30
  let v32 : FVec Ideal S8 .f32 := Host.reduceAdd v31 (constant (F := Ideal) S_ .f32 0x00000000#32) reducesTo_S8x32_S8_d1 h_S_
  let v33 : FVec Ideal S8 .f32 := broadcastInDim S8 ![] bcast_S_S8 (constant (F := Ideal) S_ .f32 0x42000000#32)
  let v34 : FVec Ideal S8 .f32 := Host.divf v32 v33
  let v35 : FVec Ideal S_ .f32 := Host.reduceAdd v34 (constant (F := Ideal) S_ .f32 0x00000000#32) reducesTo_S8_S_d0 h_S_
  let v36 : FVec Ideal S_ .f32 := Host.divf v35 (constant (F := Ideal) S_ .f32 0x41000000#32)
  let v37 : FVec Ideal S_ .f32 := mulf (constant (F := Ideal) S_ .f32 0x3DCCCCCD#32) ce
  addf v36 v37

end Cert.KernelIdeal.KValue

end
-- ==== Proof.KTailDefs.lean ====
/-
  What the kernel's program feeds the common tail: from the two output arrays, the first lane of each batch's
  accumulated log-denominators, summed over the batches and divided by the number of rows 8 · 32768; and the first 32
  lanes of each batch's accumulated group probabilities, divided by the rows per batch 32768.
-/
import proofs.«110291_j21131239096803_1_alg».proof.Proof.KFinal
import proofs.«110291_j21131239096803_1_alg».proof.Proof.TailDef

noncomputable section

open Idealize.ShloMosaic Idealize.ShloMosaic.TcCoe Idealize.SL.Sem
open Idealize.ShloMosaic.ValueIdx

namespace Cert.KernelIdeal.KValue

open Cert.KernelIdeal Cert.KernelIdeal.Gen Cert.GroupedSoftmax

variable (m : (ℓ : Loc nD τ sig) → Buf (Elt Ideal) ℓ)

/-- The mean group probabilities the kernel's program computes from the group array. -/
def kAvg (c : Dev nD) : FVec Ideal S8x32 .f32 :=
  Host.divf
    (shapeCast S8x32 (extractStridedSlice S8x1x32 ![0, 0, 0] (G3 m c) Facts₀.slices_S8x1x128_S8x1x32_0_0_0) Facts₀.shapeCasts_S8x1x32_S8x32)
    (broadcastInDim S8x32 ![] Facts₀.bcast_S_S8x32 (constant (F := Ideal) S_ .f32 0x47000000#32))

/-- The cross-entropy statistic the kernel's program computes from the log array. -/
def kCe (c : Dev nD) : FVec Ideal S_ .f32 :=
  Host.divf
    (Host.reduceAdd (shapeCast S8 (extractStridedSlice S8x1x1 ![0, 0, 0] (G2 m c) Facts₀.slices_S8x1x128_S8x1x1_0_0_0) Facts₀.shapeCasts_S8x1x1_S8)
      (constant (F := Ideal) S_ .f32 0x00000000#32) Facts₀.reducesTo_S8_S_d0 Facts₀.h_S_)
    (constant (F := Ideal) S_ .f32 0x48800000#32)

end Cert.KernelIdeal.KValue

end
-- ==== Proof.KTailEq.lean ====
/-
  The host operations after the kernel's region compute the common tail of what the two output arrays give:
  the region's arrays are read where the run left them and every other buffer is the operations' own result.
-/
import proofs.«110291_j21131239096803_1_alg».proof.Proof.KTailDefs
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.ValueIdx

namespace Cert.KernelIdeal.KValue

open Cert.KernelIdeal Cert.KernelIdeal.Gen Cert.GroupedSoftmax

variable (m : (ℓ : Loc nD τ sig) → Buf (Elt Ideal) ℓ)

theorem tail_eq (c : Dev nD) :
    Pipeline.afterTail₀ cfgs (dats m) 0 (V0 m) [hostOps1] c main_v38
      = tail (kAvg m c) (m ((c : Thread nD τ).loc main_arg1)) (kCe m c) := by
  -- the three buffers the operations read that they do not write themselves
  have h1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have h2 : Pipeline.withArrays (cfgs 0).spec c (V0 m c) (fun w => (dats m 0 c).arrAt w (cfgs 0).N)
      (Proc.devRef .tc main_v7_0) = G2 m c :=
    (Pipeline.withArrays_arr spec0 launch0.win.arr_inj c _ _ 2).trans (final2 m c)
  have h3 : Pipeline.withArrays (cfgs 0).spec c (V0 m c) (fun w => (dats m 0 c).arrAt w (cfgs 0).N)
      (Proc.devRef .tc main_v7_1) = G3 m c :=
    (Pipeline.withArrays_arr spec0 launch0.win.arr_inj c _ _ 3).trans (final3 m c)
  unfold Pipeline.afterTail₀
  show StableHlo.after hostOps1 _ (Proc.devRef .tc main_v38) = _
  after_results_simp
  rw [h1, h2, h3]
  rfl

end Cert.KernelIdeal.KValue

end
-- ==== Proof.KRun.lean ====
/-
  The kernel's run, read: every weakly fair execution ends with the result buffer at the common tail of what the two
  output arrays give, and the three arguments unchanged.
-/
import proofs.«110291_j21131239096803_1_alg».proof.Proof.KTailEq

noncomputable section

open Idealize.ShloMosaic Idealize.ShloMosaic.TcCoe Idealize.SL.Sem

namespace Cert.KernelIdeal.KValue

open Cert.KernelIdeal Cert.KernelIdeal.Gen Cert.GroupedSoftmax

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v38) = tail (kAvg m c) (m ((c : Thread nD τ).loc main_arg1)) (kCe m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v38 (Pipeline.mem_restRefs_of main_v38 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.KStats.lean ====
/-
  What the kernel's program feeds the tail, read at an index: the mean group probability of (b, g) is the
  batch's accumulated group probability of lane g over 32768, and the cross-entropy statistic is the zero word plus
  the sum over the batches of the accumulated log-denominators, over 8 · 32768.
-/
import proofs.«110291_j21131239096803_1_alg».proof.Proof.KTailDefs
import Idealize.ShloMosaic.PureOps.Ideal.Laws
import Idealize.ShloMosaic.Lib.Pipeline.Value
import Idealize.ShloMosaic.Lib.ValueLayout
import Idealize.ShloMosaic.Lib.IdealHost

noncomputable section

open Idealize.ShloMosaic Idealize.ShloMosaic.TcCoe Idealize.SL.Sem
open Idealize.ShloMosaic.ValueIdx

namespace Cert.KernelIdeal.KValue

open Cert.KernelIdeal Cert.KernelIdeal.Gen Cert.GroupedSoftmax

variable (m : (ℓ : Loc nD τ sig) → Buf (Elt Ideal) ℓ)

namespace KStats

/-- The first 32 lanes of the group array, as an [8, 32] array, at (b, g): the array at (b, 0, g). -/
theorem groupLanes_apply (c : Dev nD) (b : Fin 8) (g : Fin 32) (hg : g.val < 128) :
    shapeCast S8x32 (extractStridedSlice S8x1x32 ![0, 0, 0] (G3 m c) Facts₀.slices_S8x1x128_S8x1x32_0_0_0)
        Facts₀.shapeCasts_S8x1x32_S8x32 (ix2 b g)
      = accGrp (Xk m c) (gidk m c) b ⟨g.val, hg⟩ 7 (by decide) := by
  refine (shapeCast_apply _ _ (ix2 b g) (ix3 b (0 : Fin 1) g) ?_).trans ?_
  · rw [Shape.rowMajor_val_two, Shape.rowMajor_val_three]
    show (b.val * 1 + 0) * 32 + g.val = b.val * 32 + g.val
    omega
  refine (extractStridedSlice_apply _ _ _ (ix3 b (0 : Fin 1) g) (ix3 b (0 : Fin 1) (⟨g.val, hg⟩ : Fin 128)) ?_).trans ?_
  · intro a
    match a with
    | ⟨0, _⟩ => show b.val = 0 + b.val; omega
    | ⟨1, _⟩ => show 0 = 0 + 0; rfl
    | ⟨2, _⟩ => show g.val = 0 + g.val; omega
  rfl

/-- The divisor broadcast over the [8, 32] array reads the divisor's word everywhere. -/
theorem rowsWord_apply (b : Fin 8) (g : Fin 32) :
    broadcastInDim S8x32 ![] Facts₀.bcast_S_S8x32 (constant (F := Ideal) S_ .f32 0x47000000#32) (ix2 b g)
      = Ideal.ofBits .f32 0x47000000#32 :=
  (broadcastInDim_scalar_apply _ _ _).trans rfl

end KStats

open KStats

theorem kAvg_apply (c : Dev nD) (b : Fin 8) (g : Fin 32) :
    (kAvg m c (ix2 b g) : EReal) = avgK (Xk m c) (gidk m c) b g := by
  unfold kAvg avgK
  refine (hostDivf_apply _ _ _).trans ?_
  exact congrArg₂ Ideal.div (groupLanes_apply m c b g _) (rowsWord_apply b g)

namespace KStats

/-- The first lane of the log array, as a vector of 8, at k: the array at (k, 0, 0). -/
theorem logLane_apply (c : Dev nD) (k : Fin 8) :
    shapeCast S8 (extractStridedSlice S8x1x1 ![0, 0, 0] (G2 m c) Facts₀.slices_S8x1x128_S8x1x1_0_0_0)
        Facts₀.shapeCasts_S8x1x1_S8 (ix1 k)
      = accLog (Xk m c) k 7 (by decide) := by
  refine (shapeCast_apply _ _ (ix1 k) (ix3 k (0 : Fin 1) (0 : Fin 1)) ?_).trans ?_
  · rw [Shape.rowMajor_val_one, Shape.rowMajor_val_three]
    show (k.val * 1 + 0) * 1 + 0 = k.val
    omega
  refine (extractStridedSlice_apply _ _ _ (ix3 k (0 : Fin 1) (0 : Fin 1)) (ix3 k (0 : Fin 1) (0 : Fin 128)) ?_).trans ?_
  · intro a
    match a with
    | ⟨0, _⟩ => show k.val = 0 + k.val; omega
    | ⟨1, _⟩ => show 0 = 0 + 0; rfl
    | ⟨2, _⟩ => show 0 = 0 + 0; rfl
  rfl

/-- A vector's index set is its one coordinate's range … -/
def vecIdxEquiv {n : Nat} : (⟨1, ![n]⟩ : Shape).Idx ≃ Fin n where
  toFun i := i 0
  invFun k := ix1 k
  left_inv i := (eq_ix1 i).symm
  right_inv _ := rfl

/-- … so a sum over it is the sum over the coordinate. -/
theorem sum_vecIdx {M : Type*} [AddCommMonoid M] {n : Nat} (f : (⟨1, ![n]⟩ : Shape).Idx → M) :
    ∑ i, f i = ∑ k : Fin n, f (ix1 k) :=
  (Equiv.sum_comp (vecIdxEquiv (n := n)).symm f).symm

end KStats

theorem kCe_apply (c : Dev nD) : (kCe m c ix0 : EReal) = ceK (Xk m c) := by
  unfold kCe ceK
  refine (hostDivf_apply _ _ _).trans ?_
  refine congrArg₂ Ideal.div ?_ rfl
  refine (hostReduceAdd_apply _ _ _ _ _).trans ?_
  refine (Ideal.hostReduceAdd_total _ (fun b => b.elim0) _ _ _).trans ?_
  refine congrArg₂ (· + ·) rfl ?_
  refine (sum_vecIdx _).trans ?_
  exact Finset.sum_congr rfl fun k _ => logLane_apply m c k

end Cert.KernelIdeal.KValue

end
-- ==== Proof.RefStages.lean ====
/-
  The reference program evaluated in five stretches: the log-softmax call (to the log-probabilities), the
  cross-entropy chain (maximum per row, total, mean, negation), the indicator and the product contracted over the
  classes, the renormalisation and the mean over the rows, and the tail. Each stretch is evaluated over an arbitrary
  earlier valuation, so its result is a short term in what the stretch reads; chained, the result buffer holds the
  staged function `val_main_v43` of the three arguments.
-/
import proofs.«110291_j21131239096803_1_alg».proof.Proof.RefRun
import proofs.«110291_j21131239096803_1_alg».proof.Proof.RefRead

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Evaluating a concatenation is evaluating the first list, then the second from what it leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1–15: the log-softmax call, ending in the log-probabilities. -/
abbrev s1 : List (HloOp τ sig (Elt F)) := List.take 15 ops
/-- Operations 16–22: the cross-entropy chain. -/
abbrev s2 : List (HloOp τ sig (Elt F)) := List.take 7 (List.drop 15 ops)
/-- Operations 23–31: the probabilities, the indicator, their product. -/
abbrev s3 : List (HloOp τ sig (Elt F)) := List.take 9 (List.drop 22 ops)
/-- Operations 32–41: the renormalisation and the mean over the rows. -/
abbrev s4 : List (HloOp τ sig (Elt F)) := List.take 10 (List.drop 31 ops)
/-- Operations 42–72: the tail. -/
abbrev s5 : List (HloOp τ sig (Elt F)) := List.drop 41 ops

/-- The program is the five stretches in order. -/
theorem ops_eq : (ops : List (HloOp τ sig (Elt F))) = s1 ++ (s2 ++ (s3 ++ (s4 ++ s5))) := rfl

variable (W : Valuation τ sig (Elt F))

/-! ## Stretch 1: the log-probabilities -/

/-- Contents carried to a buffer's own type and back are unchanged. -/
theorem ofBuf_toBuf {T : BufTy} (x : TRef sig T) (v : T.Contents (Elt F)) : x.ofBuf (x.toBuf v) = v := by
  obtain ⟨r, h, h2, h3⟩ := x
  subst h
  rfl

/-- The logits as the call reads them off their buffer. -/
abbrev rd0 : (⟨S8x32768x256, .f32⟩ : BufTy).Contents (Elt F) :=
  (TRef.of (T := ⟨S8x32768x256, .f32⟩) main_arg0).ofBuf (W (Proc.devRef .tc main_arg0))

theorem stage1 : after s1 W (Proc.devRef .tc main_v0)
    = (TRef.of (T := ⟨S8x32768x256, .f32⟩) main_v0).toBuf (val_main_v0 (rd0 W)) := by
  simp only [s1, s2, s3, s4, s5, ops, List.take_succ_cons, List.take_zero, List.drop_succ_cons, List.drop_zero]
  after_results_simp
  simp only [ofBuf_toBuf]
  simp only [val_main_v0, val_main_call0_v10, val_main_call0_v9, val_main_call0_v8, val_main_call0_v7, val_main_call0_cst_1,
    val_main_call0_v6, val_main_call0_v5, val_main_call0_v4, val_main_call0_v3, val_main_call0_v2, val_main_call0_v1,
    val_main_call0_cst_0, val_main_call0_v0, val_main_call0_cst]
theorem keep1_arg1 : after s1 W (Proc.devRef .tc main_arg1) = W (Proc.devRef .tc main_arg1) := by
  simp only [s1, s2, s3, s4, s5, ops, List.take_succ_cons, List.take_zero, List.drop_succ_cons, List.drop_zero]
  after_results_simp
theorem keep1_arg2 : after s1 W (Proc.devRef .tc main_arg2) = W (Proc.devRef .tc main_arg2) := by
  simp only [s1, s2, s3, s4, s5, ops, List.take_succ_cons, List.take_zero, List.drop_succ_cons, List.drop_zero]
  after_results_simp

/-! ## Stretch 2: the cross-entropy statistic -/

variable (x0 : (⟨S8x32768x256, .f32⟩ : BufTy).Contents (Elt F)) (x1 : (⟨S8x1x32, .f32⟩ : BufTy).Contents (Elt F))
  (x2 : (⟨S256, .i32⟩ : BufTy).Contents (Elt F))

theorem stage2 (h0 : W (Proc.devRef .tc main_v0) = val_main_v0 x0) : after s2 W (Proc.devRef .tc main_v4) = val_main_v4 x0 := by
  simp only [s1, s2, s3, s4, s5, ops, List.take_succ_cons, List.take_zero, List.drop_succ_cons, List.drop_zero]
  after_results_simp
  rw [h0]
  rfl
theorem keep2_v0 : after s2 W (Proc.devRef .tc main_v0) = W (Proc.devRef .tc main_v0) := by
  simp only [s1, s2, s3, s4, s5, ops, List.take_succ_cons, List.take_zero, List.drop_succ_cons, List.drop_zero]
  after_results_simp
theorem keep2_arg1 : after s2 W (Proc.devRef .tc main_arg1) = W (Proc.devRef .tc main_arg1) := by
  simp only [s1, s2, s3, s4, s5, ops, List.take_succ_cons, List.take_zero, List.drop_succ_cons, List.drop_zero]
  after_results_simp
theorem keep2_arg2 : after s2 W (Proc.devRef .tc main_arg2) = W (Proc.devRef .tc main_arg2) := by
  simp only [s1, s2, s3, s4, s5, ops, List.take_succ_cons, List.take_zero, List.drop_succ_cons, List.drop_zero]
  after_results_simp

/-! ## Stretch 3: the group masses -/

theorem stage3 (h0 : W (Proc.devRef .tc main_v0) = val_main_v0 x0) (h2 : W (Proc.devRef .tc main_arg2) = x2) :
    after s3 W (Proc.devRef .tc main_v13) = val_main_v13 x0 x2 := by
  simp only [s1, s2, s3, s4, s5, ops, List.take_succ_cons, List.take_zero, List.drop_succ_cons, List.drop_zero]
  after_results_simp
  rw [h0, h2]
  rfl
theorem keep3_v4 : after s3 W (Proc.devRef .tc main_v4) = W (Proc.devRef .tc main_v4) := by
  simp only [s1, s2, s3, s4, s5, ops, List.take_succ_cons, List.take_zero, List.drop_succ_cons, List.drop_zero]
  after_results_simp
theorem keep3_arg1 : after s3 W (Proc.devRef .tc main_arg1) = W (Proc.devRef .tc main_arg1) := by
  simp only [s1, s2, s3, s4, s5, ops, List.take_succ_cons, List.take_zero, List.drop_succ_cons, List.drop_zero]
  after_results_simp

/-! ## Stretch 4: the mean group probabilities -/

theorem stage4 (h13 : W (Proc.devRef .tc main_v13) = val_main_v13 x0 x2) : after s4 W (Proc.devRef .tc main_v20) = val_main_v20 x0 x2 := by
  simp only [s1, s2, s3, s4, s5, ops, List.take_succ_cons, List.take_zero, List.drop_succ_cons, List.drop_zero]
  after_results_simp
  rw [h13]
  rfl
theorem keep4_v4 : after s4 W (Proc.devRef .tc main_v4) = W (Proc.devRef .tc main_v4) := by
  simp only [s1, s2, s3, s4, s5, ops, List.take_succ_cons, List.take_zero, List.drop_succ_cons, List.drop_zero]
  after_results_simp
theorem keep4_arg1 : after s4 W (Proc.devRef .tc main_arg1) = W (Proc.devRef .tc main_arg1) := by
  simp only [s1, s2, s3, s4, s5, ops, List.take_succ_cons, List.take_zero, List.drop_succ_cons, List.drop_zero]
  after_results_simp

/-! ## Stretch 5: the tail -/

theorem stage5 (h20 : W (Proc.devRef .tc main_v20) = val_main_v20 x0 x2) (h4 : W (Proc.devRef .tc main_v4) = val_main_v4 x0)
    (h1 : W (Proc.devRef .tc main_arg1) = x1) : after s5 W (Proc.devRef .tc main_v43) = val_main_v43 x0 x1 x2 := by
  simp only [s1, s2, s3, s4, s5, ops, List.take_succ_cons, List.take_zero, List.drop_succ_cons, List.drop_zero]
  after_results_simp
  rw [h20, h4, h1]
  rfl

/-! ## The whole program -/

/-- The result buffer after the whole program holds the staged function of the three arguments. -/
theorem ref_value (m : (ℓ : Loc nD τ sig) → Buf (Elt F) ℓ) (c : Dev nD) :
    after ops (launchContents m c) (Proc.devRef .tc main_v43)
      = val_main_v43 (m ((c.tc : Thread nD τ).loc main_arg0)) (m ((c.tc : Thread nD τ).loc main_arg1)) (m ((c.tc : Thread nD τ).loc main_arg2)) := by
  rw [ops_eq, after_append, after_append, after_append, after_append]
  have e0 : after s1 (launchContents m c) (Proc.devRef .tc main_v0) = val_main_v0 (m ((c.tc : Thread nD τ).loc main_arg0)) :=
    (stage1 _).trans rfl
  refine stage5 _ _ _ _ ?_ ?_ ?_
  · refine stage4 _ _ _ ?_
    refine stage3 _ _ _ ?_ ?_
    · rw [keep2_v0]; exact e0
    · rw [keep2_arg2, keep1_arg2]
  · rw [keep4_v4, keep3_v4]
    exact stage2 _ _ e0
  · rw [keep4_arg1, keep3_arg1, keep2_arg1, keep1_arg1]

end Cert.ReferenceIdeal.Stages

end
-- ==== Proof.RefAvg.lean ====
/-
  The reference's mean group probabilities, read at an index: at (b, g) the staged function is the zero word plus
  the sum over the 32768 rows of the row's renormalised group probability (log-softmax form, 32 indicator
  columns), over 32768.
-/
import proofs.«110291_j21131239096803_1_alg».proof.Proof.RefRead
import proofs.«110291_j21131239096803_1_alg».proof.Proof.Spec
import Idealize.ShloMosaic.PureOps.Ideal.Laws
import Idealize.ShloMosaic.Lib.Pipeline.Value
import Idealize.ShloMosaic.Lib.ValueLayout
import Idealize.ShloMosaic.Lib.IdealHost

noncomputable section

open Idealize.ShloMosaic Idealize.ShloMosaic.ValueIdx

namespace Cert.ReferenceIdeal.RefStats

open Cert.ReferenceIdeal Cert.ReferenceIdeal.Read Cert.GroupedSoftmax

/-- The reduced index (b, n) with class k put back is (b, n, k). -/
theorem lift_class (h : (⟨3, ![8, 32768, 256]⟩ : Shape).Reduces [2] (⟨2, ![8, 32768]⟩ : Shape)) (b : Fin 8) (n : Fin 32768)
    (k : Fin ((⟨3, ![8, 32768, 256]⟩ : Shape).size 2)) : h.lift (ix2 b n) k = ix3 b n (⟨k.val, k.isLt⟩ : Fin 256) := by
  funext c; apply Fin.ext
  fin_cases c <;> rfl

/-- A maximum over the classes, read at row (b, n): the fold of max from the initial word over the row. -/
theorem classMax_apply (y : (⟨3, ![8, 32768, 256]⟩ : Shape).Idx → Ideal .f32) (init : (⟨0, ![]⟩ : Shape).Idx → Ideal .f32)
    (h' : (⟨3, ![8, 32768, 256]⟩ : Shape).ReducesTo [2] (⟨2, ![8, 32768]⟩ : Shape)) (hu : 0 < (⟨0, ![]⟩ : Shape).numel)
    (b : Fin 8) (n : Fin 32768) :
    Host.reduce (FloatOps.maximumf (F := Ideal) (φ := .f32)) y init h' hu (ix2 b n)
      = (Finset.univ : Finset (Fin 256)).fold max (init (Shape.Idx.first hu)) (fun c => y (ix3 b n c)) := by
  have h : (⟨3, ![8, 32768, 256]⟩ : Shape).Reduces [2] (⟨2, ![8, 32768]⟩ : Shape) := by decide
  rw [Host.reduce_eq_fold_single FloatOps.maximumf y init h' h hu]
  have hf : (y ∘ h.lift (ix2 b n)) = fun c : Fin 256 => y (ix3 b n c) := funext fun k => congrArg y (lift_class h b n k)
  exact congrArg (fun f => Finset.fold max (init (Shape.Idx.first hu)) f (Finset.univ : Finset (Fin 256))) hf

variable (x0 : (⟨S8x32768x256, .f32⟩ : BufTy).Contents (Elt Ideal)) (x2 : (⟨S256, .i32⟩ : BufTy).Contents (Elt Ideal))

/-- The row maximum, joined once more with −∞. -/
theorem mx_apply (b : Fin 8) (n : Fin 32768) :
    (val_main_call0_v2 (F := Ideal) x0 (ix2 b n) : EReal) = rmaxR (row x0 b n) := by
  have h0 : (val_main_call0_v0 (F := Ideal) x0 (ix2 b n) : EReal) = rmax (row x0 b n) :=
    classMax_apply x0 (val_main_call0_cst (F := Ideal)) _ _ b n
  have h1 : (val_main_call0_v1 (F := Ideal) (ix2 b n) : EReal) = negInf :=
    (val_main_call0_v1_apply _).trans (val_main_call0_cst_0_apply _)
  rw [val_main_call0_v2_apply, h0, h1]
  rfl

/-- The shifted logit. -/
theorem sh_apply (b : Fin 8) (n : Fin 32768) (c : Fin 256) :
    (val_main_call0_v5 (F := Ideal) x0 (ix3 b n c) : EReal) = rshR (row x0 b n) c := by
  have hi : idx_main_call0_v3 (idx_main_call0_v4 (ix3 b n c)) = ix2 b n :=
    funext fun a => Fin.ext (by match a with | ⟨0, _⟩ => rfl | ⟨1, _⟩ => rfl)
  have h4 : (val_main_call0_v4 (F := Ideal) x0 (ix3 b n c) : EReal) = rmaxR (row x0 b n) :=
    (val_main_call0_v4_apply x0 _).trans ((val_main_call0_v3_apply x0 _).trans
      ((congrArg (val_main_call0_v2 (F := Ideal) x0) hi).trans (mx_apply x0 b n)))
  rw [val_main_call0_v5_apply, h4]
  rfl

/-- The denominator: the zero word plus the sum of the exponentials of the shifted logits. -/
theorem den_apply (b : Fin 8) (n : Fin 32768) :
    (val_main_call0_v7 (F := Ideal) x0 (ix2 b n) : EReal) = rdenR (row x0 b n) := by
  refine (val_main_call0_v7_apply x0 _).trans ?_
  have hz : ∀ i, (val_main_call0_cst_1 (F := Ideal) i : EReal) = zeroW := fun _ => rfl
  rw [hz]
  refine congrArg (zeroW + ·) (Finset.sum_congr rfl fun c _ => ?_)
  have hi : idx_main_call0_v7 (ix2 b n) c = ix3 b n c :=
    funext fun a => Fin.ext (by match a with | ⟨0, _⟩ => rfl | ⟨1, _⟩ => rfl | ⟨2, _⟩ => rfl)
  rw [hi, val_main_call0_v6_apply, sh_apply]
  rfl

/-- The log-probability of class c in row (b, n). -/
theorem logp_apply (b : Fin 8) (n : Fin 32768) (c : Fin 256) :
    (val_main_v0 (F := Ideal) x0 (ix3 b n c) : EReal) = rlogpR (row x0 b n) c := by
  have hi : idx_main_call0_v8 (idx_main_call0_v10 (ix3 b n c)) = ix2 b n :=
    funext fun a => Fin.ext (by match a with | ⟨0, _⟩ => rfl | ⟨1, _⟩ => rfl)
  have h8 : (val_main_call0_v8 (F := Ideal) x0 (idx_main_call0_v10 (ix3 b n c)) : EReal) = rdenR (row x0 b n) :=
    (val_main_call0_v8_apply x0 _).trans ((congrArg (val_main_call0_v7 (F := Ideal) x0) hi).trans (den_apply x0 b n))
  rw [val_main_v0_apply, val_main_call0_v10_apply, val_main_call0_v9_apply, h8, sh_apply]
  rfl

/-- The probability as the exponential of the log-probability. -/
theorem prob_apply (b : Fin 8) (n : Fin 32768) (c : Fin 256) :
    (val_main_v5 (F := Ideal) x0 (ix3 b n c) : EReal) = rprobR (row x0 b n) c := by
  rw [val_main_v5_apply, logp_apply]
  rfl

/-- The comparison's bit, read as a number, is the indicator of equality. -/
theorem eq_bit (x y : BitVec 32) :
    (((IntOp.cmpi .eq x y).toNat : ℝ) : EReal) = (((if x = y then 1#1 else 0#1 : BitVec 1).toNat : ℝ) : EReal) := by
  by_cases h : x = y
  · simp [IntOp.cmpi, h]
  · simp [IntOp.cmpi, h]

/-- The indicator block: at (c, g) the bit of "class c has group id g", as a number. -/
theorem hot_apply (c : Fin 256) (g : Fin 32) :
    (val_main_v12 (F := Ideal) x2 (ix2 c g) : EReal) = hot 32 (fun k => x2 (ix1 k)) c g := by
  have e9 : val_main_v9 (F := Ideal) x2 (ix2 c g) = x2 (ix1 c) :=
    (val_main_v9_apply x2 _).trans ((val_main_v6_apply x2 _).trans
      (congrArg x2 (funext fun a => Fin.ext (by match a with | ⟨0, _⟩ => rfl))))
  have e10 : val_main_v10 (F := Ideal) (ix2 c g) = BitVec.ofNat 32 g.val := by
    rw [val_main_v10_apply, val_main_v8_apply, val_main_v7_apply]
  rw [val_main_v12_apply, val_main_v11_apply, e9, e10]
  exact eq_bit _ _

/-- The mass of group g in row (b, n). -/
theorem grp_apply (b : Fin 8) (n : Fin 32768) (g : Fin 32) :
    (val_main_v13 (F := Ideal) x0 x2 (ix3 b n g) : EReal) = rgrpR (row x0 b n) (hot 32 (fun k => x2 (ix1 k))) g := by
  refine (val_main_v13_apply x0 x2 _).trans (Finset.sum_congr rfl fun c _ => ?_)
  have hl : lidx_main_v13 (ix3 b n g) c = ix3 b n c :=
    funext fun a => Fin.ext (by match a with | ⟨0, _⟩ => rfl | ⟨1, _⟩ => rfl | ⟨2, _⟩ => rfl)
  have hr : ridx_main_v13 (ix3 b n g) c = ix2 c g :=
    funext fun a => Fin.ext (by match a with | ⟨0, _⟩ => rfl | ⟨1, _⟩ => rfl)
  rw [hl, hr, prob_apply, hot_apply]

/-- The total mass of row (b, n): the zero word plus the sum over the 32 groups. -/
theorem norm_apply (b : Fin 8) (n : Fin 32768) :
    (val_main_v14 (F := Ideal) x0 x2 (ix2 b n) : EReal) = rnormR (row x0 b n) (hot 32 (fun k => x2 (ix1 k))) := by
  refine (val_main_v14_apply x0 x2 _).trans ?_
  have hz : ∀ i, (val_main_cst_2 (F := Ideal) i : EReal) = zeroW := fun _ => rfl
  rw [hz]
  refine congrArg (zeroW + ·) (Finset.sum_congr rfl fun g _ => ?_)
  have hi : idx_main_v14 (ix2 b n) g = ix3 b n g :=
    funext fun a => Fin.ext (by match a with | ⟨0, _⟩ => rfl | ⟨1, _⟩ => rfl | ⟨2, _⟩ => rfl)
  rw [hi, grp_apply]

/-- The renormalised group probability of row (b, n), group g. -/
theorem q_apply (b : Fin 8) (n : Fin 32768) (g : Fin 32) :
    (val_main_v17 (F := Ideal) x0 x2 (ix3 b n g) : EReal) = rqR (row x0 b n) (hot 32 (fun k => x2 (ix1 k))) g := by
  have hi : idx_main_v15 (idx_main_v16 (ix3 b n g)) = ix2 b n :=
    funext fun a => Fin.ext (by match a with | ⟨0, _⟩ => rfl | ⟨1, _⟩ => rfl)
  have h16 : (val_main_v16 (F := Ideal) x0 x2 (ix3 b n g) : EReal) = rnormR (row x0 b n) (hot 32 (fun k => x2 (ix1 k))) :=
    (val_main_v16_apply x0 x2 _).trans ((val_main_v15_apply x0 x2 _).trans
      ((congrArg (val_main_v14 (F := Ideal) x0 x2) hi).trans (norm_apply x0 x2 b n)))
  rw [val_main_v17_apply, h16, grp_apply]
  rfl

theorem ref_avg (x0 : (⟨S8x32768x256, .f32⟩ : BufTy).Contents (Elt Ideal)) (x2 : (⟨S256, .i32⟩ : BufTy).Contents (Elt Ideal))
    (b : Fin 8) (g : Fin 32) :
    (val_main_v20 (F := Ideal) x0 x2 (ix2 b g) : EReal) = avgR x0 (fun k => x2 (ix1 k)) b g := by
  have h19 : (val_main_v19 (F := Ideal) (ix2 b g) : EReal) = Ideal.ofBits .f32 0x47000000#32 :=
    (val_main_v19_apply _).trans (val_main_cst_4_apply _)
  have h18 : (val_main_v18 (F := Ideal) x0 x2 (ix2 b g) : EReal)
      = zeroW + ∑ n : Fin 32768, rqR (row x0 b n) (hot 32 (fun k => x2 (ix1 k))) g := by
    refine (val_main_v18_apply x0 x2 _).trans ?_
    have hz : ∀ i, (val_main_cst_3 (F := Ideal) i : EReal) = zeroW := fun _ => rfl
    rw [hz]
    refine congrArg (zeroW + ·) (Finset.sum_congr rfl fun n _ => ?_)
    have hi : idx_main_v18 (ix2 b g) n = ix3 b n g :=
      funext fun a => Fin.ext (by match a with | ⟨0, _⟩ => rfl | ⟨1, _⟩ => rfl | ⟨2, _⟩ => rfl)
    rw [hi, q_apply]
  rw [val_main_v20_apply, h18, h19]
  rfl

end Cert.ReferenceIdeal.RefStats

end
-- ==== Proof.RefCe.lean ====
/-
  The reference's cross-entropy statistic, read at its one index: minus the quotient by 8 · 32768 of the zero word
  plus the sum over all rows of the row's largest log-probability. And the reference's result is the common tail of
  its mean group probabilities, the differentials and that statistic.
-/
import proofs.«110291_j21131239096803_1_alg».proof.Proof.RefRead
import proofs.«110291_j21131239096803_1_alg».proof.Proof.RefAvg
import proofs.«110291_j21131239096803_1_alg».proof.Proof.Spec
import proofs.«110291_j21131239096803_1_alg».proof.Proof.TailDef
import Idealize.ShloMosaic.PureOps.Ideal.Laws
import Idealize.ShloMosaic.Lib.Pipeline.Value
import Idealize.ShloMosaic.Lib.ValueLayout
import Idealize.ShloMosaic.Lib.IdealHost

noncomputable section

open Idealize.ShloMosaic Idealize.ShloMosaic.ValueIdx

namespace Cert.ReferenceIdeal.RefStats

open Cert.ReferenceIdeal Cert.ReferenceIdeal.Read Cert.GroupedSoftmax

/-- The largest log-probability of row `(b, n)`: the fold of `max` from −∞ over the row's log-probabilities. -/
private theorem maxlogp_apply' (x0 : (⟨S8x32768x256, .f32⟩ : BufTy).Contents (Elt Ideal)) (b : Fin 8) (n : Fin 32768) :
    (val_main_v1 (F := Ideal) x0 (ix2 b n) : EReal) = rmaxlogpR (row x0 b n) := by
  unfold val_main_v1
  refine (classMax_apply _ _ _ _ b n).trans ?_
  exact congrArg (fun f => Finset.fold max negInf f (Finset.univ : Finset (Fin 256))) (funext fun c => logp_apply x0 b n c)

theorem ref_ce (x0 : (⟨S8x32768x256, .f32⟩ : BufTy).Contents (Elt Ideal)) :
    (val_main_v4 (F := Ideal) x0 ix0 : EReal) = ceR x0 := by
  show -(Ideal.div (val_main_v2 (F := Ideal) x0 ix0) (Ideal.ofBits .f32 0x48800000#32)) = _
  unfold ceR
  refine congrArg Neg.neg (congrArg (Ideal.div · (Ideal.ofBits .f32 0x48800000#32)) ?_)
  refine (val_main_v2_apply x0 ix0).trans ?_
  refine congrArg₂ (· + ·) rfl (Finset.sum_congr rfl fun j _ => ?_)
  obtain ⟨b, n, rfl⟩ : ∃ (b : Fin 8) (n : Fin 32768), j = ix2 b n := ⟨j 0, j 1, eq_ix2 j⟩
  exact maxlogp_apply' x0 b n

theorem ref_eq_tail (x0 : (⟨S8x32768x256, .f32⟩ : BufTy).Contents (Elt Ideal)) (x1 : (⟨S8x1x32, .f32⟩ : BufTy).Contents (Elt Ideal))
    (x2 : (⟨S256, .i32⟩ : BufTy).Contents (Elt Ideal)) :
    val_main_v43 (F := Ideal) x0 x1 x2
      = Cert.KernelIdeal.KValue.tail (val_main_v20 (F := Ideal) x0 x2) x1 (val_main_v4 (F := Ideal) x0) := by
  unfold val_main_v43 val_main_v42 val_main_v41 val_main_v40 val_main_v39 val_main_v38 val_main_v37 val_main_v36
    val_main_v35 val_main_v34 val_main_v33 val_main_v32 val_main_v31 val_main_v30 val_main_v29 val_main_v28 val_main_v27
    val_main_v26 val_main_v25 val_main_v24 val_main_v23 val_main_v22 val_main_v21 val_main_cst_5 val_main_cst_6
    val_main_cst_7 val_main_cst_8 val_main_cst_9 val_main_cst_10 val_main_cst_11 val_main_cst_12
    Cert.KernelIdeal.KValue.tail
  generalize val_main_v20 (F := Ideal) x0 x2 = avg
  generalize val_main_v4 (F := Ideal) x0 = ce
  rfl

end Cert.ReferenceIdeal.RefStats

end
-- ==== Proof.RowMath.lean ====
/-
  One row of real logits: the log-softmax form and the quotient form of the softmax agree, the largest
  log-probability is minus the log-denominator, and with every class in one of the first 32 groups the
  128-column and the 32-column renormalisations agree.
-/
import proofs.«110291_j21131239096803_1_alg».proof.Proof.Spec

noncomputable section

namespace Cert.GroupedSoftmax

open Idealize.ShloMosaic

/-- The word a maximum starts from is −∞. -/
theorem negInf_eq : negInf = ⊥ := by simp [negInf, Ideal.ofBits, Ideal.ieee]

/-- The word a host sum starts from is 0. -/
theorem zeroW_eq : zeroW = 0 := by simp [zeroW, Ideal.ofBits, Ideal.ieee]

/-- A finite sum of coerced reals is the coerced sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum from −∞ of coerced reals, one of which dominates, is that one. -/
theorem fold_coe (η : Fin 256 → ℝ) (c₀ : Fin 256) (h : ∀ c, η c ≤ η c₀) :
    (Finset.univ : Finset (Fin 256)).fold max negInf (fun c => (η c : EReal)) = (η c₀ : EReal) := by
  apply le_antisymm
  · rw [Finset.fold_max_le]
    refine ⟨by rw [negInf_eq]; exact bot_le, fun c _ => ?_⟩
    exact EReal.coe_le_coe_iff.mpr (h c)
  · rw [Finset.le_fold_max]
    exact Or.inr ⟨c₀, Finset.mem_univ _, le_refl _⟩

/-- A real row: its entries ξ, a class c₀ attaining the maximum, and the positive real denominator δ. -/
theorem row_data (x : Fin 256 → EReal) (hx : RealRow x) :
    ∃ (ξ : Fin 256 → ℝ) (c₀ : Fin 256) (δ : ℝ),
      x = (fun c => (ξ c : EReal)) ∧ (∀ c, ξ c ≤ ξ c₀) ∧ 0 < δ ∧
      rmax x = (ξ c₀ : EReal) ∧ rmaxR x = (ξ c₀ : EReal) ∧
      (∀ c, rexp x c = (Real.exp (ξ c - ξ c₀) : EReal)) ∧
      rden x = (δ : EReal) ∧ rdenR x = (δ : EReal) ∧ rlog x = (Real.log δ : EReal) := by
  choose ξ hξ using hx
  obtain ⟨c₀, -, hc₀⟩ := Finset.exists_max_image (Finset.univ : Finset (Fin 256)) ξ ⟨0, Finset.mem_univ _⟩
  have hmax : ∀ c, ξ c ≤ ξ c₀ := fun c => hc₀ c (Finset.mem_univ _)
  have hx' : x = fun c => (ξ c : EReal) := funext hξ
  subst hx'
  have h1 : rmax (fun c => (ξ c : EReal)) = (ξ c₀ : EReal) := fold_coe ξ c₀ hmax
  have h2 : rmaxR (fun c => (ξ c : EReal)) = (ξ c₀ : EReal) := by
    rw [rmaxR, h1, negInf_eq]; exact max_eq_right bot_le
  have h3 : ∀ c, rexp (fun c => (ξ c : EReal)) c = (Real.exp (ξ c - ξ c₀) : EReal) := by
    intro c
    rw [rexp, h1]; beta_reduce
    rw [← EReal.coe_sub, Ideal.exp_coe]
  have hδ : 0 < ∑ c, Real.exp (ξ c - ξ c₀) :=
    Finset.sum_pos (fun c _ => Real.exp_pos _) ⟨0, Finset.mem_univ _⟩
  have h4 : rden (fun c => (ξ c : EReal)) = ((∑ c, Real.exp (ξ c - ξ c₀) : ℝ) : EReal) := by
    rw [rden, ← coe_sum]; exact Finset.sum_congr rfl (fun c _ => h3 c)
  have h5 : rdenR (fun c => (ξ c : EReal)) = ((∑ c, Real.exp (ξ c - ξ c₀) : ℝ) : EReal) := by
    rw [rdenR, zeroW_eq, zero_add, ← coe_sum]
    refine Finset.sum_congr rfl (fun c _ => ?_)
    rw [rshR, h2]; beta_reduce
    rw [← EReal.coe_sub, Ideal.exp_coe]
  have h6 : rlog (fun c => (ξ c : EReal)) = (Real.log (∑ c, Real.exp (ξ c - ξ c₀)) : EReal) := by
    rw [rlog, h4, Ideal.log_coe, if_neg (not_le.mpr hδ)]
  exact ⟨ξ, c₀, _, rfl, hmax, hδ, h1, h2, h3, h4, h5, h6⟩

/-- exp (a − log d) = exp a / d: the probability read off the log-softmax is the quotient. -/
theorem rprobR_eq (x : Fin 256 → EReal) (hx : RealRow x) (c : Fin 256) : rprobR x c = rprob x c := by
  obtain ⟨ξ, c₀, δ, rfl, hmax, hδ, h1, h2, h3, h4, h5, h6⟩ := row_data x hx
  rw [rprobR, rlogpR, rshR, h2, h5, rprob, h3, h4, Ideal.div_coe hδ.ne', Ideal.log_coe, if_neg (not_le.mpr hδ)]
  beta_reduce
  rw [← EReal.coe_sub, ← EReal.coe_sub, Ideal.exp_coe, ← EReal.coe_mul, Real.exp_sub, Real.exp_log hδ,
    div_eq_mul_one_div]

/-- The log-denominator of a real row is a real number. -/
theorem rlog_real (x : Fin 256 → EReal) (hx : RealRow x) : ∃ ℓ : ℝ, rlog x = (ℓ : EReal) := by
  obtain ⟨ξ, c₀, δ, rfl, hmax, hδ, h1, h2, h3, h4, h5, h6⟩ := row_data x hx
  exact ⟨Real.log δ, h6⟩

/-- The largest shifted logit is 0, so the largest log-probability is minus the log-denominator. -/
theorem rmaxlogpR_eq (x : Fin 256 → EReal) (hx : RealRow x) : rmaxlogpR x = -rlog x := by
  obtain ⟨ξ, c₀, δ, rfl, hmax, hδ, h1, h2, h3, h4, h5, h6⟩ := row_data x hx
  have hfun : rlogpR (fun c => (ξ c : EReal)) = fun c => (((ξ c - ξ c₀) - Real.log δ : ℝ) : EReal) := by
    funext c
    rw [rlogpR, rshR, h2, h5, Ideal.log_coe, if_neg (not_le.mpr hδ)]; beta_reduce
    rw [← EReal.coe_sub, ← EReal.coe_sub]
  rw [rmaxlogpR, hfun, fold_coe (fun c => (ξ c - ξ c₀) - Real.log δ) c₀
    (fun c => sub_le_sub_right (sub_le_sub_right (hmax c) _) _), h6, ← EReal.coe_neg]
  beta_reduce
  rw [sub_self, zero_sub]

/-- The 32-column indicator is the first 32 columns of the 128-column one. -/
theorem hot_cast (gid : Fin 256 → BitVec 32) (c : Fin 256) (g : Fin 32) :
    hot 32 gid c g = hot 128 gid c ⟨g.val, by have := g.isLt; omega⟩ := rfl

/-- With every class in a group below 32, the indicator's columns 32 … 127 are zero. -/
theorem hot_high (gid : Fin 256 → BitVec 32) (hg : GroupRange gid) (c : Fin 256) (g' : Fin 128)
    (h : 32 ≤ g'.val) : hot 128 gid c g' = 0 := by
  obtain ⟨k, hk⟩ := hg c
  have hne : gid c ≠ BitVec.ofNat 32 g'.val := by
    rw [hk]; intro he
    have h' := congrArg BitVec.toNat he
    simp only [BitVec.toNat_ofNat] at h'
    have hk' := k.isLt
    have hg' := g'.isLt
    rw [Nat.mod_eq_of_lt (by omega), Nat.mod_eq_of_lt (by omega)] at h'
    omega
  simp [hot, hne]

/-- With every class in a group below 32 the indicator's columns 32 … 127 are zero: the two renormalised
    group probabilities agree on the first 32 groups. -/
theorem rqR_eq (x : Fin 256 → EReal) (hx : RealRow x) (gid : Fin 256 → BitVec 32) (hg : GroupRange gid) (g : Fin 32) :
    rqR x (hot 32 gid) g = rq x (hot 128 gid) ⟨g.val, by have := g.isLt; omega⟩ := by
  have hgrp : ∀ g : Fin 32, rgrpR x (hot 32 gid) g = rgrp x (hot 128 gid) ⟨g.val, by have := g.isLt; omega⟩ := by
    intro g
    rw [rgrpR, rgrp]
    exact Finset.sum_congr rfl (fun c _ => by rw [rprobR_eq x hx c, hot_cast])
  have hzero : ∀ g' : Fin 128, 32 ≤ g'.val → rgrp x (hot 128 gid) g' = 0 := by
    intro g' h
    rw [rgrp]
    exact Finset.sum_eq_zero (fun c _ => by rw [hot_high gid hg c g' h, mul_zero])
  have hnorm : rnorm x (hot 128 gid) = rnormR x (hot 32 gid) := by
    rw [rnormR, zeroW_eq, zero_add, rnorm]
    have hsplit := Fin.sum_univ_add (a := 32) (b := 96) (fun g' : Fin (32 + 96) => rgrp x (hot 128 gid) g')
    refine hsplit.trans ?_
    have hhi : ∑ i : Fin 96, rgrp x (hot 128 gid) (Fin.natAdd 32 i) = 0 :=
      Finset.sum_eq_zero (fun i _ => hzero _ (by simp [Fin.coe_natAdd]))
    rw [hhi, add_zero]
    exact Finset.sum_congr rfl (fun g _ => (hgrp g).symm)
  rw [rqR, rq, hgrp g, hnorm]

end Cert.GroupedSoftmax

end
-- ==== Proof.LibSumBlocks.lean ====
/-
  A sum over `Fin n`, where n = a · b, regrouped as a sum over a blocks of b consecutive indices:
      Σ_{k < n} g k = Σ_{c < a} Σ_{d < b} g (c · b + d).
  It holds in every commutative additive monoid, so in particular for sums of extended reals, where no term needs to be finite.
-/
import Mathlib.Algebra.BigOperators.Fin

namespace Cert.Lib

/-- The k-th index of block c. -/
def blockIdx {a b n : ℕ} (h : a * b = n) (c : Fin a) (d : Fin b) : Fin n :=
  ⟨c.val * b + d.val, by
    have hc := c.isLt
    have hd := d.isLt
    calc c.val * b + d.val < c.val * b + b := Nat.add_lt_add_left hd _
      _ = (c.val + 1) * b := (Nat.succ_mul _ _).symm
      _ ≤ a * b := Nat.mul_le_mul_right _ hc
      _ = n := h⟩

@[simp] theorem blockIdx_val {a b n : ℕ} (h : a * b = n) (c : Fin a) (d : Fin b) : (blockIdx h c d).val = c.val * b + d.val := rfl

/-- A sum over `Fin (a * b)` is the sum over the a blocks of the sums over each block's b indices. -/
theorem sum_fin_blocks {M : Type*} [AddCommMonoid M] {a b n : ℕ} (h : a * b = n) (g : Fin n → M) :
    ∑ k : Fin n, g k = ∑ c : Fin a, ∑ d : Fin b, g (blockIdx h c d) := by
  subst h
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

end Cert.Lib
-- ==== Proof.StatMath.lean ====
/-
  The two statistics: the mean log-denominator accumulated tile by tile is minus the mean of the largest
  log-probability summed over all rows at once, and the tile-by-tile mean group probability is the mean
  over all rows — a sum over 32768 rows is the sum over 8 tiles of the sums over 4096 rows.
-/
import proofs.«110291_j21131239096803_1_alg».proof.Proof.RowMath
import proofs.«110291_j21131239096803_1_alg».proof.Proof.LibSumBlocks
import Idealize.ShloMosaic.PureOps.Ideal.Laws

noncomputable section

namespace Cert.GroupedSoftmax

open Idealize.ShloMosaic

namespace StatMath

/-- The zero word denotes 0. -/
theorem zeroW_eq : zeroW = 0 := Ideal.ofBits_zero_f32

/-- The divisor of the cross-entropy mean denotes 262144 = 8 · 32768. -/
theorem ofBits_262144 : Ideal.ofBits .f32 0x48800000#32 = ((262144 : ℝ) : EReal) := by
  simp [Ideal.ofBits, Ideal.ieee, -EReal.coe_mul]; norm_num

/-- A finite sum of reals, read in the extended reals, is the sum of the readings. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A sum over the 32768 rows of a batch is the sum over its 8 tiles of the sums over each tile's 4096 rows. -/
theorem sum_rows_tiles {M : Type*} [AddCommMonoid M] (f : Fin 32768 → M) :
    ∑ n : Fin 32768, f n = ∑ j : Fin 8, ∑ r : Fin 4096, f (tileRow j r) := by
  rw [Cert.Lib.sum_fin_blocks (a := 8) (b := 4096) (by norm_num) f]
  refine Finset.sum_congr rfl fun j _ => Finset.sum_congr rfl fun r _ => congrArg f (Fin.ext ?_)
  show j.val * 4096 + r.val = 4096 * j.val + r.val
  rw [Nat.mul_comm]

/-- The accumulated log-denominators after tiles 0 … k are the plain sum of those tiles' sums. -/
theorem accLog_eq (X : (⟨3, ![8, 32768, 256]⟩ : Shape).Idx → EReal) (b : Fin 8) :
    ∀ (k : ℕ) (h : k < 8),
      accLog X b k h = ∑ j : Fin (k + 1), tileLog X b ⟨j.val, by have := j.isLt; omega⟩
  | 0, h => by
    rw [accLog, zeroW_eq, zero_add, Fin.sum_univ_one]; rfl
  | k + 1, h => by
    rw [accLog, accLog_eq X b k (Nat.lt_of_succ_lt h), Fin.sum_univ_castSucc (n := k + 1)]; rfl

/-- The accumulated group probabilities after tiles 0 … k are the plain sum of those tiles' sums. -/
theorem accGrp_eq (X : (⟨3, ![8, 32768, 256]⟩ : Shape).Idx → EReal) (gid : Fin 256 → BitVec 32) (b : Fin 8)
    (g : Fin 128) :
    ∀ (k : ℕ) (h : k < 8),
      accGrp X gid b g k h = ∑ j : Fin (k + 1), tileGrp X gid b ⟨j.val, by have := j.isLt; omega⟩ g
  | 0, h => by
    rw [accGrp, zeroW_eq, zero_add, Fin.sum_univ_one]; rfl
  | k + 1, h => by
    rw [accGrp, accGrp_eq X gid b g k (Nat.lt_of_succ_lt h), Fin.sum_univ_castSucc (n := k + 1)]; rfl

/-- All eight tiles: the accumulated log-denominators of a batch are the sum over all its rows. -/
theorem accLog_rows (X : (⟨3, ![8, 32768, 256]⟩ : Shape).Idx → EReal) (b : Fin 8) :
    accLog X b 7 (by decide) = ∑ n : Fin 32768, rlog (row X b n) := by
  rw [accLog_eq, sum_rows_tiles]
  rfl

/-- All eight tiles: the accumulated group probabilities of a batch are the sum over all its rows. -/
theorem accGrp_rows (X : (⟨3, ![8, 32768, 256]⟩ : Shape).Idx → EReal) (gid : Fin 256 → BitVec 32) (b : Fin 8)
    (g : Fin 128) :
    accGrp X gid b g 7 (by decide) = ∑ n : Fin 32768, rq (row X b n) (hot 128 gid) g := by
  rw [accGrp_eq, sum_rows_tiles]
  rfl

end StatMath

open StatMath

theorem ce_eq (X : (⟨3, ![8, 32768, 256]⟩ : Shape).Idx → EReal) (hX : RealLogits X) : ceR X = ceK X := by
  have hreal : ∀ (b : Fin 8) (n : Fin 32768), ∃ ℓ : ℝ, rlog (row X b n) = (ℓ : EReal) :=
    fun b n => rlog_real (row X b n) (hX.row b n)
  choose ℓ hℓ using hreal
  -- the reference's numerator: the sum over all rows of −ℓ
  have hR : zeroW + ∑ i : (⟨2, ![8, 32768]⟩ : Shape).Idx, rmaxlogpR (row X (i 0) (i 1))
      = ((∑ b : Fin 8, ∑ n : Fin 32768, -ℓ b n : ℝ) : EReal) := by
    rw [zeroW_eq, zero_add, ValueIdx.sum_idx2, ← coe_sum]
    refine Finset.sum_congr rfl fun b _ => ?_
    rw [← coe_sum]
    refine Finset.sum_congr rfl fun n _ => ?_
    show rmaxlogpR (row X b n) = _
    rw [rmaxlogpR_eq _ (hX.row b n), hℓ, EReal.coe_neg]
  -- the kernel's numerator: the sum over all rows of ℓ
  have hK : zeroW + ∑ b : Fin 8, accLog X b 7 (by decide)
      = ((∑ b : Fin 8, ∑ n : Fin 32768, ℓ b n : ℝ) : EReal) := by
    rw [zeroW_eq, zero_add, ← coe_sum]
    refine Finset.sum_congr rfl fun b _ => ?_
    rw [accLog_rows, ← coe_sum]
    exact Finset.sum_congr rfl fun n _ => hℓ b n
  have h0 : (262144 : ℝ) ≠ 0 := by norm_num
  rw [ceR, ceK, hR, hK, ofBits_262144, Ideal.div_coe h0, Ideal.div_coe h0, ← EReal.coe_mul, ← EReal.coe_mul,
    ← EReal.coe_neg]
  refine congrArg Real.toEReal ?_
  rw [Finset.sum_congr rfl fun b _ => Finset.sum_neg_distrib (f := fun n => ℓ b n), Finset.sum_neg_distrib]
  ring

theorem avg_eq (X : (⟨3, ![8, 32768, 256]⟩ : Shape).Idx → EReal) (gid : Fin 256 → BitVec 32) (hX : RealLogits X)
    (hg : GroupRange gid) (b : Fin 8) (g : Fin 32) : avgR X gid b g = avgK X gid b g := by
  have hnum : zeroW + ∑ n : Fin 32768, rqR (row X b n) (hot 32 gid) g
      = accGrp X gid b ⟨g.val, by have := g.isLt; omega⟩ 7 (by decide) := by
    rw [zeroW_eq, zero_add, accGrp_rows]
    exact Finset.sum_congr rfl fun n _ => rqR_eq (row X b n) (hX.row b n) gid hg g
  rw [avgR, avgK, hnum]

end Cert.GroupedSoftmax

end
-- ==== Proof.PreFacts.lean ====
/-
  What the precondition gives: every logit is a real number (|x| < +∞ excludes both infinities), and every
  class's group id is one of the 32 groups (0 ≤ id < 32 as signed words).
-/
import proofs.«110291_j21131239096803_1_alg».proof.Pre_finite_inputs
import proofs.«110291_j21131239096803_1_alg».proof.Proof.Gen.Pre_finite_inputs
import proofs.«110291_j21131239096803_1_alg».proof.Proof.Spec
import Idealize.ShloMosaic.Lib.ReduceAll
import Idealize.ShloMosaic.PureOps.Ideal.Laws

noncomputable section

namespace Cert.GroupedSoftmax

open Idealize.ShloMosaic Idealize.ShloMosaic.ValueIdx

/-- An extended real whose absolute value is strictly below +∞ is a real number. -/
private theorem real_of_abs_lt_top (x : EReal)
    (h : Ideal.cmp .olt (max x (-x)) (Ideal.ofBits .f32 0x7F800000#32) = 1#1) : ∃ ξ : ℝ, x = (ξ : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- A word that is signed-nonnegative and signed-below 32 is one of 0 … 31. -/
private theorem word_range (v : BitVec 32) (h0 : IntOp.cmpi .sge v 0#32 = 1#1) (h1 : IntOp.cmpi .slt v 32#32 = 1#1) :
    ∃ k : Fin 32, v = BitVec.ofNat 32 k.val := by
  rw [IntOp.cmpi_sge] at h0
  rw [IntOp.cmpi_slt] at h1
  have e0 : (0#32 : BitVec 32).toInt = 0 := by decide
  have e1 : (32#32 : BitVec 32).toInt = 32 := by decide
  rw [e0] at h0
  rw [e1] at h1
  have hlt := v.isLt
  have hcond := BitVec.toInt_eq_toNat_cond v
  have hk : v.toNat < 32 := by
    split at hcond <;> omega
  exact ⟨⟨v.toNat, hk⟩, by simp⟩

theorem finite_logits (a0 : FVec Ideal Cert.Pre_finite_inputs.S8x32768x256 .f32) (a1 : FVec Ideal Cert.Pre_finite_inputs.S8x1x32 .f32)
    (a2 : IVec Cert.Pre_finite_inputs.S256 32)
    (h : Cert.Pre_finite_inputs.fn (F := Ideal) a0 a1 a2 = fun _ => 1#1) : RealLogits a0 := by
  have h0 := congrFun h ValueIdx.ix0
  dsimp only [Cert.Pre_finite_inputs.fn] at h0
  obtain ⟨h8, -⟩ := IntOp.andi_eq_one.1 h0
  obtain ⟨h3, -⟩ := IntOp.andi_eq_one.1 h8
  intro i
  -- the result shape has exactly one index
  haveI : Subsingleton Cert.Pre_finite_inputs.S_.Idx := ⟨fun a b => funext fun d => d.elim0⟩
  have hi := Host.reduce_andi_all _ _ _ _ _ h3 i
  exact real_of_abs_lt_top (a0 i) hi

theorem group_range (a0 : FVec Ideal Cert.Pre_finite_inputs.S8x32768x256 .f32) (a1 : FVec Ideal Cert.Pre_finite_inputs.S8x1x32 .f32)
    (a2 : IVec Cert.Pre_finite_inputs.S256 32)
    (h : Cert.Pre_finite_inputs.fn (F := Ideal) a0 a1 a2 = fun _ => 1#1) : GroupRange (fun c => a2 (ix1 c)) := by
  have h0 := congrFun h ValueIdx.ix0
  dsimp only [Cert.Pre_finite_inputs.fn] at h0
  obtain ⟨-, h14⟩ := IntOp.andi_eq_one.1 h0
  intro c
  -- the result shape has exactly one index
  haveI : Subsingleton Cert.Pre_finite_inputs.S_.Idx := ⟨fun a b => funext fun d => d.elim0⟩
  have hi := Host.reduce_andi_all _ _ _ _ _ h14 (ix1 c)
  obtain ⟨hge, hlt⟩ := IntOp.andi_eq_one.1 hi
  exact word_range (a2 (ix1 c)) hge hlt

end Cert.GroupedSoftmax

end
-- ==== Proof.Claims.lean ====
/-
  The five claims. The three frames are the generated frame runs (the reference's: its run with the result
  dropped). The idealization rewrote nothing. For the algebraic claim both runs end at the common tail: the
  kernel's of the statistics its two accumulated arrays give, the reference's of its staged statistics; under the
  precondition (real logits, every group id below 32) the two mean group probabilities agree index by index and the
  two cross-entropy statistics agree, so the results are equal.
-/
import proofs.«110291_j21131239096803_1_alg».proof.Defs
import proofs.«110291_j21131239096803_1_alg».proof.Proof.Gen.Kernel.Frame
import proofs.«110291_j21131239096803_1_alg».proof.Proof.KRun
import proofs.«110291_j21131239096803_1_alg».proof.Proof.KStats
import proofs.«110291_j21131239096803_1_alg».proof.Proof.RefStages
import proofs.«110291_j21131239096803_1_alg».proof.Proof.RefAvg
import proofs.«110291_j21131239096803_1_alg».proof.Proof.RefCe
import proofs.«110291_j21131239096803_1_alg».proof.Proof.StatMath
import proofs.«110291_j21131239096803_1_alg».proof.Proof.PreFacts

noncomputable section

open Idealize.ShloMosaic Idealize.ShloMosaic.TcCoe Idealize.SL.Sem
open Idealize.ShloMosaic.ValueIdx

namespace Cert.Proof.Claims

open Cert.GroupedSoftmax Cert.KernelIdeal.KValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => tail (kAvg m c) (m ((c : Thread Cert.KernelIdeal.nD Cert.KernelIdeal.τ).loc Cert.KernelIdeal.main_arg1)) (kCe m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hX : RealLogits (Xk m c) := finite_logits _ _ _ (hpre c)
  have hg : GroupRange (gidk m c) := group_range _ _ _ (hpre c)
  rw [Cert.ReferenceIdeal.Stages.ref_value m' c, (hagree c).1, (hagree c).2.1, (hagree c).2.2,
    Cert.ReferenceIdeal.RefStats.ref_eq_tail]
  refine congrArg₂ (fun a e => tail a (m ((c : Thread Cert.KernelIdeal.nD Cert.KernelIdeal.τ).loc Cert.KernelIdeal.main_arg1)) e) ?_ ?_
  · funext i
    obtain ⟨b, g, rfl⟩ : ∃ (b : Fin 8) (g : Fin 32), i = ix2 b g := ⟨i 0, i 1, eq_ix2 i⟩
    exact (Cert.ReferenceIdeal.RefStats.ref_avg _ _ b g).trans ((avg_eq _ _ hX hg b g).trans (kAvg_apply m c b g).symm)
  · funext i
    obtain rfl := eq_ix0 i
    exact (Cert.ReferenceIdeal.RefStats.ref_ce _).trans ((ce_eq _ hX).trans (kCe_apply m c).symm)

end Cert.Proof.Claims

end
-- ==== Proof.lean ====
/- Grouped softmax statistics: the kernel against its reference, over the extended reals.

   Both programs take logits x [8, 32768, 256], differentials [8, 1, 32] and a group id per class. Per row they
   form the softmax p of the 256 logits and its log-denominator L (minus the largest log-probability), sum p over
   the classes of each group, renormalise by the total over the groups, and average over the 32768 rows of a batch;
   the result is a Kullback–Leibler term of the softmaxed differentials against those averages plus a tenth of the
   mean of L. The kernel takes p as exp(x − max)/Σ exp(x − max), sums groups by a product with a 0/1 indicator of
   128 columns, renormalises over all 128, and accumulates both statistics tile by tile (8 tiles of 4096 rows per
   batch) from a zero block; the reference takes p as exp of the log-softmax, uses 32 indicator columns, and sums
   all rows at once. With real logits exp(a − log d) = exp(a)/d and the largest log-probability is −L; with every
   group id in 0 … 31 the indicator's columns 32 … 127 vanish, so both renormalisers agree; a sum over 32768 rows
   is the sum over the 8 tiles of the tile sums. So the two programs feed equal statistics into the same tail. -/
import proofs.«110291_j21131239096803_1_alg».proof.Defs
import proofs.«110291_j21131239096803_1_alg».proof.Proof.Gen.Kernel
import proofs.«110291_j21131239096803_1_alg».proof.Proof.Gen.Kernel.Skeleton
import proofs.«110291_j21131239096803_1_alg».proof.Proof.Gen.Kernel.Launch
import proofs.«110291_j21131239096803_1_alg».proof.Proof.Gen.Kernel.Points
import proofs.«110291_j21131239096803_1_alg».proof.Proof.Gen.Kernel.Frame
import proofs.«110291_j21131239096803_1_alg».proof.Proof.Gen.KernelIdeal
import proofs.«110291_j21131239096803_1_alg».proof.Proof.Gen.KernelIdeal.Skeleton
import proofs.«110291_j21131239096803_1_alg».proof.Proof.Gen.KernelIdeal.Launch
import proofs.«110291_j21131239096803_1_alg».proof.Proof.Gen.KernelIdeal.Points
import proofs.«110291_j21131239096803_1_alg».proof.Proof.Gen.KernelIdeal.Frame
import proofs.«110291_j21131239096803_1_alg».proof.Proof.Gen.ReferenceIdeal
import proofs.«110291_j21131239096803_1_alg».proof.Proof.Gen.Pre_finite_inputs
import proofs.«110291_j21131239096803_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
